-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x512 : Shape := ⟨3, ![4, 4096, 512]⟩
abbrev S512x2048 : Shape := ⟨2, ![512, 2048]⟩
abbrev S2048 : Shape := ⟨1, ![2048]⟩
abbrev S512x128 : Shape := ⟨2, ![512, 128]⟩
abbrev S128 : Shape := ⟨1, ![128]⟩
abbrev S1024x512 : Shape := ⟨2, ![1024, 512]⟩
abbrev S512 : Shape := ⟨1, ![512]⟩
abbrev S_ : Shape := ⟨0, ![]⟩

class Facts : Prop where
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S2048 : S_.BroadcastsInDim S2048 (![] : Fin 0 → Fin S2048.rank)
  reducesTo_S2048_S_d0 : S2048.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S128 .f32) (main_arg8 : FVec F S1024x512 .f32) (main_arg9 : FVec F S512 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S1024x512 .f32 := Host.absf main_arg8
  let main_cst_14 : FVec F S_ .f32 := constant S_ .f32 0x7F800000#32
  let main_v40 : FVec F S1024x512 .f32 := broadcastInDim S1024x512 ![] bcast_S_S1024x512 main_cst_14
  let main_v41 : IVec S1024x512 1 := cmpf .olt main_v39 main_v40
  let main_c_15 : IVec S_ 1 := constantI S_ 1 1#1
  let main_v42 : IVec S_ 1 := (fun x v => Host.reduce IntOp.andi x v reducesTo_S1024x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  main_v48

def fn_part1 {F : FTy → Type} [FloatOps F] (main_arg4 : FVec F S128 .f32) (main_arg5 : FVec F S128 .f32) (main_arg6 : FVec F S128 .f32) (main_arg7 : FVec F S128 .f32) (main_arg8 : FVec F S1024x512 .f32) (main_arg9 : FVec F S512 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_v33

def fn {F : FTy → Type} [FloatOps F] (main_arg0 : FVec F S4x4096x512 .f32) (main_arg1 : FVec F S512x2048 .f32) (main_arg2 : FVec F S2048 .f32) (main_arg3 : FVec F S512x128 .f32) (main_arg4 : FVec F S128 .f32) (main_arg5 : FVec F S128 .f32) (main_arg6 : FVec F S128 .f32) (main_arg7 : FVec F S128 .f32) (main_arg8 : FVec F S1024x512 .f32) (main_arg9 : FVec F S512 .f32) : IVec S_ 1 :=
  let main_v0 : FVec F S4x4096x512 .f32 := Host.absf main_arg0
  let main_cst : FVec F S_ .f32 := constant S_ .f32 0x7F800000#32
  let main_v1 : FVec F S4x4096x512 .f32 := broadcastInDim S4x4096x512 ![] bcast_S_S4x4096x512 main_cst
  let main_v2 : IVec S4x4096x512 1 := cmpf .olt main_v0 main_v1
  let main_c : IVec S_ 1 := constantI S_ 1 1#1
  let main_v3 : IVec S_ 1 := (fun x v => Host.reduce IntOp.andi x v reducesTo_S4x4096x512_S_d0_1_2 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S512x128 .f32 := Host.absf main_arg3
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg4 main_arg5 main_arg6 main_arg7 main_arg8 main_arg9 main_v13 main_v16
-- ==== Kernel.lean ====
abbrev S4x4096x512 : Shape := ⟨3, ![4, 4096, 512]⟩
abbrev S512x2048 : Shape := ⟨2, ![512, 2048]⟩
abbrev S2048 : Shape := ⟨1, ![2048]⟩
abbrev S512x128 : Shape := ⟨2, ![512, 128]⟩
abbrev S128 : Shape := ⟨1, ![128]⟩
abbrev S1024x512 : Shape := ⟨2, ![1024, 512]⟩
abbrev S512 : Shape := ⟨1, ![512]⟩
abbrev S512x1024 : Shape := ⟨2, ![512, 1024]⟩
abbrev S1024 : Shape := ⟨1, ![1024]⟩
abbrev S4x4096x1024 : Shape := ⟨3, ![4, 4096, 1024]⟩
abbrev S4x4096x128 : Shape := ⟨3, ![4, 4096, 128]⟩
abbrev S1x512x512 : Shape := ⟨3, ![1, 512, 512]⟩
abbrev S1x512x1024 : Shape := ⟨3, ![1, 512, 1024]⟩
abbrev S1x512x128 : Shape := ⟨3, ![1, 512, 128]⟩
abbrev S512x512 : Shape := ⟨2, ![512, 512]⟩
abbrev S1x1024 : Shape := ⟨2, ![1, 1024]⟩
abbrev S1x128 : Shape := ⟨2, ![1, 128]⟩
abbrev S1x4096x128 : Shape := ⟨3, ![1, 4096, 128]⟩
abbrev S1x4096x1024 : Shape := ⟨3, ![1, 4096, 1024]⟩
abbrev S4096x128 : Shape := ⟨2, ![4096, 128]⟩
abbrev S128x4096 : Shape := ⟨2, ![128, 4096]⟩
abbrev S512x4096 : Shape := ⟨2, ![512, 4096]⟩
abbrev S4096x1024 : Shape := ⟨2, ![4096, 1024]⟩
abbrev S1x512 : Shape := ⟨2, ![1, 512]⟩

abbrev nBuf : Space → Nat
  | .hbm => 23
  | .vmem => 33
  | .smem => 0
  | _ => 0

abbrev bufTy : (tb : Table) → Fin (tcTables nBuf tb) → BufTy
  | .hbm, ⟨0, _⟩ => ⟨S4x4096x512, .f32⟩
  | .hbm, ⟨1, _⟩ => ⟨S512x2048, .f32⟩
  | .hbm, ⟨2, _⟩ => ⟨S2048, .f32⟩
  | .hbm, ⟨3, _⟩ => ⟨S512x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S1024x512, .f32⟩
  | .hbm, ⟨9, _⟩ => ⟨S512, .f32⟩
  | .hbm, ⟨10, _⟩ => ⟨S512x1024, .f32⟩
  | .hbm, ⟨11, _⟩ => ⟨S512x1024, .bf16⟩
  | .hbm, ⟨12, _⟩ => ⟨S512x1024, .f32⟩
  | .hbm, ⟨13, _⟩ => ⟨S512x1024, .bf16⟩
  | .hbm, ⟨14, _⟩ => ⟨S1024, .f32⟩
  | .hbm, ⟨15, _⟩ => ⟨S1024, .f32⟩
  | .hbm, ⟨16, _⟩ => ⟨S512x128, .bf16⟩
  | .hbm, ⟨17, _⟩ => ⟨S1024x512, .bf16⟩
  | .hbm, ⟨18, _⟩ => ⟨S4x4096x1024, .bf16⟩
  | .hbm, ⟨19, _⟩ => ⟨S4x4096x1024, .bf16⟩
  | .hbm, ⟨20, _⟩ => ⟨S4x4096x128, .bf16⟩
  | .hbm, ⟨21, _⟩ => ⟨S4x4096x128, .bf16⟩
  | .hbm, ⟨22, _⟩ => ⟨S4x4096x512, .f32⟩
  | .local _ .vmem, ⟨0, _⟩ => ⟨S1x512x512, .f32⟩
  | .local _ .vmem, ⟨1, _⟩ => ⟨S1x512x512, .f32⟩
  | .local _ .vmem, ⟨2, _⟩ => ⟨S512x1024, .bf16⟩
  | .local _ .vmem, ⟨3, _⟩ => ⟨S1024, .f32⟩
  | .local _ .vmem, ⟨4, _⟩ => ⟨S512x1024, .bf16⟩
  | .local _ .vmem, ⟨5, _⟩ => ⟨S1024, .f32⟩
  | .local _ .vmem, ⟨6, _⟩ => ⟨S512x128, .bf16⟩
  | .local _ .vmem, ⟨7, _⟩ => ⟨S128, .f32⟩
  | .local _ .vmem, ⟨8, _⟩ => ⟨S128, .f32⟩
  | .local _ .vmem, ⟨9, _⟩ => ⟨S128, .f32⟩
  | .local _ .vmem, ⟨10, _⟩ => ⟨S128, .f32⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x128, .bf16⟩
  | .local _ .vmem, ⟨16, _⟩ => ⟨S1x512x128, .bf16⟩
  | .local _ .vmem, ⟨17, _⟩ => ⟨S1x512x128, .bf16⟩
  | .local _ .vmem, ⟨18, _⟩ => ⟨S1x512x128, .bf16⟩
  | .local _ .vmem, ⟨19, _⟩ => ⟨S1x512x128, .bf16⟩
  | .local _ .vmem, ⟨20, _⟩ => ⟨S1x512x128, .bf16⟩
  | .local _ .vmem, ⟨21, _⟩ => ⟨S1x4096x128, .bf16⟩
  | .local _ .vmem, ⟨22, _⟩ => ⟨S1x4096x128, .bf16⟩
  | .local _ .vmem, ⟨23, _⟩ => ⟨S1x4096x1024, .bf16⟩
  | .local _ .vmem, ⟨24, _⟩ => ⟨S1x4096x1024, .bf16⟩
  | .local _ .vmem, ⟨25, _⟩ => ⟨S1x512x1024, .bf16⟩
  | .local _ .vmem, ⟨26, _⟩ => ⟨S1x512x1024, .bf16⟩
  | .local _ .vmem, ⟨27, _⟩ => ⟨S1x512x512, .f32⟩
  | .local _ .vmem, ⟨28, _⟩ => ⟨S1x512x512, .f32⟩
  | .local _ .vmem, ⟨29, _⟩ => ⟨S1024x512, .bf16⟩
  | .local _ .vmem, ⟨30, _⟩ => ⟨S512, .f32⟩
  | .local _ .vmem, ⟨31, _⟩ => ⟨S1x512x512, .f32⟩
  | .local _ .vmem, ⟨32, _⟩ => ⟨S1x512x512, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v8_3 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc1_stg5_0 : Ref sig .tc := ⟨.vmem, 29, rfl⟩
abbrev cc1_stg6_0 : Ref sig .tc := ⟨.vmem, 30, rfl⟩
abbrev cc1_stg7_0 : Ref sig .tc := ⟨.vmem, 31, rfl⟩
abbrev cc1_stg7_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem2_1 : DmaSem sig := 24
abbrev cc1_sem3_0 : DmaSem sig := 25
abbrev cc1_sem3_1 : DmaSem sig := 26
abbrev cc1_sem4_0 : DmaSem sig := 27
abbrev cc1_sem4_1 : DmaSem sig := 28
abbrev cc1_sem5_0 : DmaSem sig := 29
abbrev cc1_sem6_0 : DmaSem sig := 30
abbrev cc1_sem7_0 : DmaSem sig := 31
abbrev cc1_sem7_1 : DmaSem sig := 32

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 1 → Memref sig .tc .vmem S1024x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x512x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

class Facts₀ : Prop where
  slices_S512x2048_S512x1024_0_0 : S512x2048.Slices ![0, 0] S512x1024
  bitsLt_bf16_f32 : FTy.bits .bf16 < FTy.bits .f32
  slices_S512x2048_S512x1024_0_1024 : S512x2048.Slices ![0, 1024] S512x1024
  slices_S2048_S1024_0 : S2048.Slices ![0] S1024
  slices_S2048_S1024_1024 : S2048.Slices ![1024] S1024
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024_S1024_0 : ∀ a, (![0] : Fin 1 → Nat) a + S1024.size a ≤ S1024.size a
  h_S1024 : 0 < S1024.numel
  shapeCasts_S1024_S1024 : S1024.ShapeCasts S1024
  shapeCasts_S1024_S1x1024 : S1024.ShapeCasts S1x1024
  broadcasts_S1x1024_S512x1024 : S1x1024.Broadcasts S512x1024
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128_S128_0 : ∀ a, (![0] : Fin 1 → Nat) a + S128.size a ≤ S128.size a
  h_S128 : 0 < S128.numel
  shapeCasts_S128_S1x128 : S128.ShapeCasts S1x128
  broadcasts_S1x128_S512x128 : S1x128.Broadcasts S512x128
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  packedbf16_S1x512x128_S1x512x128_0_0_0 : (Rect.unit (s := S1x512x128) ![0, 0, 0] S1x512x128.size inb_S1x512x128_S1x512x128_0_0_0).PackedRows (EltTy.packing .bf16)
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  transposes_S4096x128_p1_0_S128x4096 : S4096x128.Transposes [1, 0] S128x4096
  inb_S1x4096x1024_S1x4096x1024_0_0_0 : ∀ a, (![0, 0, 0] : Fin 3 → Nat) a + S1x4096x1024.size a ≤ S1x4096x1024.size a
  h_S1x4096x1024 : 0 < S1x4096x1024.numel
  shapeCasts_S1x4096x1024_S4096x1024 : S1x4096x1024.ShapeCasts S4096x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  shapeCasts_S512x512_S1x512x512 : S512x512.ShapeCasts S1x512x512
  dot_S512x512_S512x1024_S512x1024_1_0_0_1_n_n_wf : DotDims.WF S512x512 S512x1024 S512x1024 [1] [0] [0] [1] [] []
  dot_S512x512_S512x128_S512x128_1_0_0_1_n_n_wf : DotDims.WF S512x512 S512x128 S512x128 [1] [0] [0] [1] [] []
  dot_S512x128_S128x4096_S512x4096_1_0_0_1_n_n_wf : DotDims.WF S512x128 S128x4096 S512x4096 [1] [0] [0] [1] [] []
  dot_S512x4096_S4096x1024_S512x1024_1_0_0_1_n_n_wf : DotDims.WF S512x4096 S4096x1024 S512x1024 [1] [0] [0] [1] [] []
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S4x4096x512.size a
  hwx0_0 : ∀ i : grid0.Coords, EltTy.bits .f32 = 32 ∨ (Rect.block (s := S4x4096x512) S1x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .bf16 = 32 ∨ (Rect.block (s := S512x1024) S512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .bf16 = 32 ∨ (Rect.block (s := S512x1024) S512x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S512x128.size a
  hwx0_5 : ∀ i : grid0.Coords, EltTy.bits .bf16 = 32 ∨ (Rect.block (s := S512x128) S512x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x512x1024.size a ≤ S4x4096x1024.size a
  hwx0_10 : ∀ i : grid0.Coords, EltTy.bits .bf16 = 32 ∨ (Rect.block (s := S4x4096x1024) S1x512x1024.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x512x1024.size a ≤ S4x4096x1024.size a
  hwx0_11 : ∀ i : grid0.Coords, EltTy.bits .bf16 = 32 ∨ (Rect.block (s := S4x4096x1024) S1x512x1024.size (cc0_transform_11 i) (hinb0_11 i)).WholeWords (EltTy.packing .bf16)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x512x128.size a ≤ S4x4096x128.size a
  hwx0_12 : ∀ i : grid0.Coords, EltTy.bits .bf16 = 32 ∨ (Rect.block (s := S4x4096x128) S1x512x128.size (cc0_transform_12 i) (hinb0_12 i)).WholeWords (EltTy.packing .bf16)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x512x128.size a ≤ S4x4096x128.size a
  hwx0_13 : ∀ i : grid0.Coords, EltTy.bits .bf16 = 32 ∨ (Rect.block (s := S4x4096x128) S1x512x128.size (cc0_transform_13 i) (hinb0_13 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S4x4096x128.size a
  hwx1_0 : ∀ i : grid1.Coords, EltTy.bits .bf16 = 32 ∨ (Rect.block (s := S4x4096x128) S1x512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x128.size a ≤ S4x4096x128.size a
  hwx1_1 : ∀ i : grid1.Coords, EltTy.bits .bf16 = 32 ∨ (Rect.block (s := S4x4096x128) S1x4096x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x1024.size a ≤ S4x4096x1024.size a
  hwx1_2 : ∀ i : grid1.Coords, EltTy.bits .bf16 = 32 ∨ (Rect.block (s := S4x4096x1024) S1x4096x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S4x4096x1024.size a
  hwx1_3 : ∀ i : grid1.Coords, EltTy.bits .bf16 = 32 ∨ (Rect.block (s := S4x4096x1024) S1x512x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x512.size a ≤ S4x4096x512.size a
  hwx1_4 : ∀ i : grid1.Coords, EltTy.bits .f32 = 32 ∨ (Rect.block (s := S4x4096x512) S1x512x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x512.size a ≤ S1024x512.size a
  hwx1_5 : ∀ i : grid1.Coords, EltTy.bits .bf16 = 32 ∨ (Rect.block (s := S1024x512) S1024x512.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512.size a ≤ S512.size a
  hwx1_6 : ∀ i : grid1.Coords, EltTy.bits .f32 = 32 ∨ (Rect.block (s := S512) S512.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x512x512.size a ≤ S4x4096x512.size a
  hwx1_7 : ∀ i : grid1.Coords, EltTy.bits .f32 = 32 ∨ (Rect.block (s := S4x4096x512) S1x512x512.size (cc1_transform_7 i) (hinb1_7 i)).WholeWords (EltTy.packing .f32)

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x128_S128x4096_S512x4096_1_0_0_1_n_n : DotDims S512x128 S128x4096 S512x4096 where
  lhsContracting := [1]
  rhsContracting := [0]
  lhsNonContracting := [0]
  rhsNonContracting := [1]
  lhsBatch := []
  rhsBatch := []
  wf := dot_S512x128_S128x4096_S512x4096_1_0_0_1_n_n_wf
def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S512x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8_0) S1x512x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v8_1) S1x512x1024.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v8_2) S1x512x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v8_3) S1x512x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_v8_2) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8_3) S1x4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8_0) S1x4096x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8_1) S1x512x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg0) S1x512x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1024x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v9) S1x512x512.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S4x4096x512 : Shape := ⟨3, ![4, 4096, 512]⟩
abbrev S512x2048 : Shape := ⟨2, ![512, 2048]⟩
abbrev S2048 : Shape := ⟨1, ![2048]⟩
abbrev S512x128 : Shape := ⟨2, ![512, 128]⟩
abbrev S128 : Shape := ⟨1, ![128]⟩
abbrev S1024x512 : Shape := ⟨2, ![1024, 512]⟩
abbrev S512 : Shape := ⟨1, ![512]⟩
abbrev S4x4096x2048 : Shape := ⟨3, ![4, 4096, 2048]⟩
abbrev S1x1x2048 : Shape := ⟨3, ![1, 1, 2048]⟩
abbrev S4x4096x1024 : Shape := ⟨3, ![4, 4096, 1024]⟩
abbrev S4x4096x128 : Shape := ⟨3, ![4, 4096, 128]⟩
abbrev S1x1x128 : Shape := ⟨3, ![1, 1, 128]⟩
abbrev S4x4096x4096 : Shape := ⟨3, ![4, 4096, 4096]⟩
abbrev S_ : Shape := ⟨0, ![]⟩
abbrev S1x1x512 : Shape := ⟨3, ![1, 1, 512]⟩

abbrev nBuf : Space → Nat
  | .hbm => 44
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S512x2048, .f32⟩
  | .hbm, ⟨2, _⟩ => ⟨S2048, .f32⟩
  | .hbm, ⟨3, _⟩ => ⟨S512x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S1024x512, .f32⟩
  | .hbm, ⟨9, _⟩ => ⟨S512, .f32⟩
  | .hbm, ⟨10, _⟩ => ⟨S4x4096x2048, .f32⟩
  | .hbm, ⟨11, _⟩ => ⟨S1x1x2048, .f32⟩
  | .hbm, ⟨12, _⟩ => ⟨S4x4096x2048, .f32⟩
  | .hbm, ⟨13, _⟩ => ⟨S4x4096x2048, .f32⟩
  | .hbm, ⟨14, _⟩ => ⟨S4x4096x1024, .f32⟩
  | .hbm, ⟨15, _⟩ => ⟨S4x4096x1024, .f32⟩
  | .hbm, ⟨16, _⟩ => ⟨S4x4096x128, .f32⟩
  | .hbm, ⟨17, _⟩ => ⟨S1x1x128, .f32⟩
  | .hbm, ⟨18, _⟩ => ⟨S4x4096x128, .f32⟩
  | .hbm, ⟨19, _⟩ => ⟨S4x4096x128, .f32⟩
  | .hbm, ⟨20, _⟩ => ⟨S1x1x128, .f32⟩
  | .hbm, ⟨21, _⟩ => ⟨S4x4096x128, .f32⟩
  | .hbm, ⟨22, _⟩ => ⟨S4x4096x128, .f32⟩
  | .hbm, ⟨23, _⟩ => ⟨S1x1x128, .f32⟩
  | .hbm, ⟨24, _⟩ => ⟨S4x4096x128, .f32⟩
  | .hbm, ⟨25, _⟩ => ⟨S4x4096x128, .f32⟩
  | .hbm, ⟨26, _⟩ => ⟨S1x1x128, .f32⟩
  | .hbm, ⟨27, _⟩ => ⟨S4x4096x128, .f32⟩
  | .hbm, ⟨28, _⟩ => ⟨S4x4096x128, .f32⟩
  | .hbm, ⟨29, _⟩ => ⟨S4x4096x4096, .f32⟩
  | .hbm, ⟨30, _⟩ => ⟨S_, .f32⟩
  | .hbm, ⟨31, _⟩ => ⟨S4x4096x4096, .f32⟩
  | .hbm, ⟨32, _⟩ => ⟨S4x4096x4096, .f32⟩
  | .hbm, ⟨33, _⟩ => ⟨S_, .f32⟩
  | .hbm, ⟨34, _⟩ => ⟨S4x4096x4096, .f32⟩
  | .hbm, ⟨35, _⟩ => ⟨S4x4096x4096, .f32⟩
  | .hbm, ⟨36, _⟩ => ⟨S4x4096x4096, .f32⟩
  | .hbm, ⟨37, _⟩ => ⟨S4x4096x1024, .f32⟩
  | .hbm, ⟨38, _⟩ => ⟨S4x4096x1024, .f32⟩
  | .hbm, ⟨39, _⟩ => ⟨S4x4096x512, .f32⟩
  | .hbm, ⟨40, _⟩ => ⟨S1x1x512, .f32⟩
  | .hbm, ⟨41, _⟩ => ⟨S4x4096x512, .f32⟩
  | .hbm, ⟨42, _⟩ => ⟨S4x4096x512, .f32⟩
  | .hbm, ⟨43, _⟩ => ⟨S4x4096x512, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  slices_S4x4096x2048_S4x4096x1024_0_0_0 : S4x4096x2048.Slices ![0, 0, 0] S4x4096x1024
  slices_S4x4096x2048_S4x4096x1024_0_0_1024 : S4x4096x2048.Slices ![0, 0, 1024] S4x4096x1024
  bcast_S128_S1x1x128_2 : S128.BroadcastsInDim S1x1x128 (![2] : Fin 1 → Fin S1x1x128.rank)
  bcast_S1x1x128_S4x4096x128_0_1_2 : S1x1x128.BroadcastsInDim S4x4096x128 (![0, 1, 2] : Fin 3 → Fin S4x4096x128.rank)
  bcast_S_S4x4096x4096 : S_.BroadcastsInDim S4x4096x4096 (![] : Fin 0 → Fin S4x4096x4096.rank)
  bcast_S512_S1x1x512_2 : S512.BroadcastsInDim S1x1x512 (![2] : Fin 1 → Fin S1x1x512.rank)
  bcast_S1x1x512_S4x4096x512_0_1_2 : S1x1x512.BroadcastsInDim S4x4096x512 (![0, 1, 2] : Fin 3 → Fin S4x4096x512.rank)
  dot_S4x4096x512_S512x2048_S4x4096x2048_2_0_01_1_n_n_wf : DotDims.WF S4x4096x512 S512x2048 S4x4096x2048 [2] [0] [0, 1] [1] [] []
  dot_S4x4096x512_S512x128_S4x4096x128_2_0_01_1_n_n_wf : DotDims.WF S4x4096x512 S512x128 S4x4096x128 [2] [0] [0, 1] [1] [] []
  dot_S4x4096x128_S4x4096x128_S4x4096x4096_2_2_1_1_0_0_wf : DotDims.WF S4x4096x128 S4x4096x128 S4x4096x4096 [2] [2] [1] [1] [0] [0]
  dot_S4x4096x4096_S4x4096x1024_S4x4096x1024_2_1_1_2_0_0_wf : DotDims.WF S4x4096x4096 S4x4096x1024 S4x4096x1024 [2] [1] [1] [2] [0] [0]
  dot_S4x4096x1024_S1024x512_S4x4096x512_2_0_01_1_n_n_wf : DotDims.WF S4x4096x1024 S1024x512 S4x4096x512 [2] [0] [0, 1] [1] [] []

variable [Facts₀]

def dot_S4x4096x512_S512x2048_S4x4096x2048_2_0_01_1_n_n : DotDims S4x4096x512 S512x2048 S4x4096x2048 where
  lhsContracting := [2]
  rhsContracting := [0]
  lhsNonContracting := [0, 1]
  rhsNonContracting := [1]
  lhsBatch := []
  rhsBatch := []
  wf := dot_S4x4096x512_S512x2048_S4x4096x2048_2_0_01_1_n_n_wf
def dot_S4x4096x512_S512x128_S4x4096x128_2_0_01_1_n_n : DotDims S4x4096x512 S512x128 S4x4096x128 where
  lhsContracting := [2]
  rhsContracting := [0]
  lhsNonContracting := [0, 1]
  rhsNonContracting := [1]
  lhsBatch := []
  rhsBatch := []
  wf := dot_S4x4096x512_S512x128_S4x4096x128_2_0_01_1_n_n_wf
def dot_S4x4096x128_S4x4096x128_S4x4096x4096_2_2_1_1_0_0 : DotDims S4x4096x128 S4x4096x128 S4x4096x4096 where
  lhsContracting := [2]
  rhsContracting := [2]
  lhsNonContracting := [1]
  rhsNonContracting := [1]
  lhsBatch := [0]
  rhsBatch := [0]
  wf := dot_S4x4096x128_S4x4096x128_S4x4096x4096_2_2_1_1_0_0_wf
def dot_S4x4096x4096_S4x4096x1024_S4x4096x1024_2_1_1_2_0_0 : DotDims S4x4096x4096 S4x4096x1024 S4x4096x1024 where
  lhsContracting := [2]
  rhsContracting := [1]
  lhsNonContracting := [1]
  rhsNonContracting := [2]
  lhsBatch := [0]
  rhsBatch := [0]
  wf := dot_S4x4096x4096_S4x4096x1024_S4x4096x1024_2_1_1_2_0_0_wf
def dot_S4x4096x1024_S1024x512_S4x4096x512_2_0_01_1_n_n : DotDims S4x4096x1024 S1024x512 S4x4096x512 where
  lhsContracting := [2]
  rhsContracting := [0]
  lhsNonContracting := [0, 1]
  rhsNonContracting := [1]
  lhsBatch := []
  rhsBatch := []
  wf := dot_S4x4096x1024_S1024x512_S4x4096x512_2_0_01_1_n_n_wf

class Facts : Prop extends Facts₀ where

variable [Facts]
-- ==== Proof.KernelRun.lean ====
/-
  The idealized kernel's run with its result named.

  The program is a stretch of host operations followed by two kernel regions.  Its run leaves every buffer
  that outlives a region at the contents obtained by folding the stretch and the two regions' write-backs over
  the launch memory; the result buffer is the second region's output array, so it ends at what that region's
  pipeline leaves in it, and the ten arguments end as launched.
-/
import proofs.«124823_j50672024158214_1_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's
    contents and the arguments as launched. -/
theorem run : θ_run defs (onTc (τ := τ) (main (F := F))) ⟨m, fun _ => 0, ρ⟩ (fun r => ∀ c : Dev nD,
      r.2.mem ((c.tc : Thread nD τ).loc main_v9) = W3 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v9 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c)⟩)

/-- The result buffer is the second region's output array: it ends at what that pipeline leaves. -/
theorem result_arr (c : Dev nD) :
    W3 m ρ c (Proc.devRef .tc main_v9) = (dat1 (V2 m ρ) c).arrAt 7 cfg1.N := W3_arr m ρ c 7

end Cert.KernelIdeal.Result

end
-- ==== Proof.LibPlainMatmul.lean ====
/-
  A plain matrix product read at one entry, over the extended reals.

  For the dimension numbers of an `M × K` by `K × N` product (`DotDims.plain M K N`: the left operand
  contracted on its second axis, the right one on its first, no batch axis) the entry `(p, q)` of the
  product is `∑ k, lhs (p, k) * rhs (k, q)`: for a kernel's matrix-unit product accumulated into the zero
  splat, and for the host's `dot_general`. The contraction index of such a product has one coordinate, and
  the operands' indices at output `(p, q)` and contraction coordinate `k` are `(p, k)` and `(k, q)`.
-/
import Idealize.ShloMosaic.Lib.ValueIdx
import Idealize.ShloMosaic.PureOps.Ideal.Laws

noncomputable section

open scoped BigOperators

namespace Cert.PlainMatmul

open Idealize.ShloMosaic Idealize.ShloMosaic.ValueIdx

variable {M K N : Nat}

/-- The contraction of a plain product runs over one axis … -/
theorem contr_rank : (DotDims.plain M K N).contr.rank = 1 := rfl

/-- … of extent `K`. -/
theorem contr_size : (DotDims.plain M K N).contr.size ⟨0, Nat.one_pos⟩ = K := rfl

/-- The contraction index whose one coordinate is `k`. -/
abbrev kidx (k : Fin K) : (DotDims.plain M K N).contr.Idx :=
  (contrEquiv1 (DotDims.plain M K N) K contr_rank contr_size).symm k

/-- At output `(p, q)` and contraction coordinate `k` the left operand is read at `(p, k)`. -/
theorem lhsIdx_eq (p : Fin M) (q : Fin N) (k : Fin K) :
    (DotDims.plain M K N).lhsIdx (ix2 p q) (kidx k) = ix2 p k := by
  funext a
  refine Fin.ext ?_
  match a with
  | ⟨0, h0⟩ =>
    unfold DotDims.lhsIdx
    rw [dif_neg (show ¬(⟨0, h0⟩ : Fin (⟨2, ![M, K]⟩ : Shape).rank) ∈ (DotDims.plain M K N).lhsBatch from List.not_mem_nil),
      dif_pos (show (⟨0, h0⟩ : Fin (⟨2, ![M, K]⟩ : Shape).rank) ∈ (DotDims.plain M K N).lhsNonContracting from
        List.mem_singleton.mpr rfl)]
    rfl
  | ⟨1, _⟩ =>
    exact ((DotDims.plain M K N).lhsIdx_val_of_single (cl := 1) rfl (ix2 p q) (kidx k)).trans
      (contrEquiv1_symm_val (DotDims.plain M K N) K contr_rank contr_size k)

/-- At output `(p, q)` and contraction coordinate `k` the right operand is read at `(k, q)`. -/
theorem rhsIdx_eq (p : Fin M) (q : Fin N) (k : Fin K) :
    (DotDims.plain M K N).rhsIdx (ix2 p q) (kidx k) = ix2 k q := by
  funext a
  refine Fin.ext ?_
  match a with
  | ⟨0, _⟩ =>
    exact ((DotDims.plain M K N).rhsIdx_val_of_single (cr := 0) rfl (ix2 p q) (kidx k)).trans
      (contrEquiv1_symm_val (DotDims.plain M K N) K contr_rank contr_size k)
  | ⟨1, h1⟩ =>
    unfold DotDims.rhsIdx
    rw [dif_neg (show ¬(⟨1, h1⟩ : Fin (⟨2, ![K, N]⟩ : Shape).rank) ∈ (DotDims.plain M K N).rhsBatch from List.not_mem_nil),
      dif_pos (show (⟨1, h1⟩ : Fin (⟨2, ![K, N]⟩ : Shape).rank) ∈ (DotDims.plain M K N).rhsNonContracting from
        List.mem_singleton.mpr rfl)]
    rfl

/-- The sum over the contraction index of a plain product is the sum over its one coordinate. -/
theorem sum_contr (f : (⟨2, ![M, K]⟩ : Shape).Idx → (⟨2, ![K, N]⟩ : Shape).Idx → EReal) (p : Fin M) (q : Fin N) :
    ∑ κ : (DotDims.plain M K N).contr.Idx, f ((DotDims.plain M K N).lhsIdx (ix2 p q) κ) ((DotDims.plain M K N).rhsIdx (ix2 p q) κ)
      = ∑ k : Fin K, f (ix2 p k) (ix2 k q) := by
  rw [← Equiv.sum_comp (contrEquiv1 (DotDims.plain M K N) K contr_rank contr_size).symm]
  refine Finset.sum_congr rfl fun k _ => ?_
  rw [lhsIdx_eq p q k, rhsIdx_eq p q k]

/-- A KERNEL'S PRODUCT into the zero accumulator, at entry `(p, q)`: the sum over `k` of `lhs (p, k) * rhs (k, q)`,
    whatever the operands' formats (a change of format is the identity on the extended reals). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (DotDims.plain M K N) prec lhs rhs (constant (F := Ideal) ⟨2, ![M, N]⟩ .f32 0x00000000#32) (ix2 p q)
      = ∑ k : Fin K, lhs (ix2 p k) * rhs (ix2 k q) := by
  show FloatOps.matmul (DotDims.plain M K N) prec lhs rhs (constant (F := Ideal) ⟨2, ![M, N]⟩ .f32 0x00000000#32) (ix2 p q) = _
  rw [Ideal.matmul_constant_zero_apply]
  exact sum_contr (fun a b => lhs a * rhs b) p q

/-- THE HOST'S `dot_general` with the same dimension numbers, at entry `(p, q)`: the same sum. -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (DotDims.plain M K N) prec lhs rhs (ix2 p q) = ∑ k : Fin K, lhs (ix2 p k) * rhs (ix2 k q) := by
  show FloatOps.dotGeneral (DotDims.plain M K N) prec .single lhs rhs (ix2 p q) = _
  rw [Ideal.dotGeneral_apply]
  exact sum_contr (fun a b => lhs a * rhs b) p q

end Cert.PlainMatmul

end
-- ==== Proof.ProjEntry.lean ====
/-
  The projection body read at one entry, over the extended reals.

  One grid point of the first kernel takes a block of 512 rows of the input `x` (as `[1, 512, 512]`) and the
  whole weight matrices and bias rows, and stores four blocks.  A change of float format is the identity on
  the extended reals, a product into the zero accumulator is a plain sum, and the layout steps only rename
  the index, so entry `(0, r, h)` of a stored block is

    * value and gate blocks:  `∑ d, x (0, r, d) · W (d, h) + b h`,
    * query and key blocks:   `(∑ d, x (0, r, d) · Wqk (d, e)) · γ e + β e`.
-/
import proofs.«124823_j50672024158214_1_alg».proof.Proof.Gen.KernelIdeal.Skeleton
import proofs.«124823_j50672024158214_1_alg».proof.Proof.LibPlainMatmul
import Idealize.ShloMosaic.Lib.ValueLayout
import Idealize.ShloMosaic.Lib.ValueIdx
import Idealize.ShloMosaic.PureOps.Ideal.Laws

noncomputable section

open scoped BigOperators

namespace Cert.KernelIdeal.ProjEntry

open Idealize.ShloMosaic Idealize.ShloMosaic.ValueIdx Cert.KernelIdeal Cert.KernelIdeal.Gen

/-- The block of `x` as a `512 × 512` matrix times a `512 × n` weight matrix, at `(r, h)`. -/
theorem rows_times (x0 : Vec Ideal S1x512x512 .f32) (w : Vec Ideal S512x1024 .bf16) (r : Fin 512) (h : Fin 1024) :
    matmul dot_S512x512_S512x1024_S512x1024_1_0_0_1_n_n none (k0_pay5 x0) (shapeCast S512x1024 w shapeCasts_S512x1024_S512x1024 : FVec Ideal S512x1024 .bf16)
        (constant (F := Ideal) S512x1024 .f32 0x00000000#32) (ix2 r h)
      = ∑ d : Fin 512, x0 (ix3 (0 : Fin 1) r d) * w (ix2 d h) := by
  refine (Cert.PlainMatmul.matmul_zero_apply (M := 512) (K := 512) (N := 1024) none _ _ r h).trans ?_
  refine Finset.sum_congr rfl fun d _ => ?_
  rw [shapeCast_self]
  unfold k0_pay5
  rw [truncf_apply, shapeCast_1ab_ab_apply]

/-- The same against the `512 × 128` query/key weights. -/
theorem rows_times_qk (x0 : Vec Ideal S1x512x512 .f32) (w : Vec Ideal S512x128 .bf16) (r : Fin 512) (e : Fin 128) :
    k0_pay7 x0 w (ix2 r e) = ∑ d : Fin 512, x0 (ix3 (0 : Fin 1) r d) * w (ix2 d e) := by
  unfold k0_pay7
  refine (Cert.PlainMatmul.matmul_zero_apply (M := 512) (K := 512) (N := 128) none _ _ r e).trans ?_
  refine Finset.sum_congr rfl fun d _ => ?_
  rw [shapeCast_self]
  unfold k0_pay5
  rw [truncf_apply, shapeCast_1ab_ab_apply]

/-- A bias vector laid as one row and repeated down the rows, at `(r, h)`. -/
theorem bias_row {n : Nat} (b : (⟨1, ![n]⟩ : Shape).Idx → EReal)
    (h1 : (⟨1, ![n]⟩ : Shape).ShapeCasts ⟨2, ![1, n]⟩) (h2 : (⟨2, ![1, n]⟩ : Shape).Broadcasts ⟨2, ![512, n]⟩)
    (r : Fin 512) (h : Fin n) :
    broadcastTo ⟨2, ![512, n]⟩ (shapeCast ⟨2, ![1, n]⟩ b h1) h2 (ix2 r h) = b (ix1 h) := by
  rw [broadcastTo_1b_ab_apply, shapeCast_a_1a_apply]

/-- The value block (window 10), at `(u, r, h)`. -/
theorem value_entry (x0 : Vec Ideal S1x512x512 .f32) (w : Vec Ideal S512x1024 .bf16) (b : Vec Ideal S1024 .f32)
    (u : Fin 1) (r : Fin 512) (h : Fin 1024) :
    k0_pay1 (k0_pay10 x0 w b) (ix3 u r h) = (∑ d : Fin 512, x0 (ix3 (0 : Fin 1) r d) * w (ix2 d h)) + b (ix1 h) := by
  unfold k0_pay1
  rw [shapeCast_ab_1ab_apply]
  unfold k0_pay10
  rw [truncf_apply, addf_apply, rows_times, shapeCast_self]
  exact congrArg _ (bias_row (n := 1024) b _ _ r h)

/-- The gate block (window 11), at `(u, r, h)`. -/
theorem gate_entry (x0 : Vec Ideal S1x512x512 .f32) (w : Vec Ideal S512x1024 .bf16) (b : Vec Ideal S1024 .f32)
    (u : Fin 1) (r : Fin 512) (h : Fin 1024) :
    k0_pay2 (k0_pay6 x0 w b) (ix3 u r h) = (∑ d : Fin 512, x0 (ix3 (0 : Fin 1) r d) * w (ix2 d h)) + b (ix1 h) := by
  unfold k0_pay2
  rw [shapeCast_ab_1ab_apply, truncf_apply]
  unfold k0_pay6
  rw [addf_apply, rows_times, shapeCast_self]
  exact congrArg _ (bias_row (n := 1024) b _ _ r h)

/-- The query block (window 12), at `(u, r, e)`. -/
theorem query_entry (x0 : Vec Ideal S1x512x512 .f32) (w : Vec Ideal S512x128 .bf16) (g be : Vec Ideal S128 .f32)
    (u : Fin 1) (r : Fin 512) (e : Fin 128) :
    k0_pay3 (k0_pay8 x0 w g be) (ix3 u r e)
      = (∑ d : Fin 512, x0 (ix3 (0 : Fin 1) r d) * w (ix2 d e)) * g (ix1 e) + be (ix1 e) := by
  unfold k0_pay3
  rw [shapeCast_ab_1ab_apply, truncf_apply]
  unfold k0_pay8
  rw [addf_apply, mulf_apply, rows_times_qk, bias_row (n := 128) g, bias_row (n := 128) be]

/-- The key block (window 13), at `(u, r, e)`. -/
theorem key_entry (x0 : Vec Ideal S1x512x512 .f32) (w : Vec Ideal S512x128 .bf16) (g be : Vec Ideal S128 .f32)
    (u : Fin 1) (r : Fin 512) (e : Fin 128) :
    k0_pay4 (k0_pay9 x0 w g be) (ix3 u r e)
      = (∑ d : Fin 512, x0 (ix3 (0 : Fin 1) r d) * w (ix2 d e)) * g (ix1 e) + be (ix1 e) := by
  unfold k0_pay4
  rw [shapeCast_ab_1ab_apply, truncf_apply]
  unfold k0_pay9
  rw [addf_apply, mulf_apply, rows_times_qk, bias_row (n := 128) g, bias_row (n := 128) be]

end Cert.KernelIdeal.ProjEntry

end
-- ==== Proof.Spec.lean ====
/-
  The gated attention unit as formulas over the extended reals.

  Both programs compute, for a batch `b`, a query row `n` and an output column `j`,

    out (b, n, j) = ∑ h, ((∑ p, relu² (s · ∑ e, Q (b, n, e) · K (b, p, e)) · V (b, p, h)) · G (b, n, h)) · Wout (h, j)
                      + bout j + x (b, n, j)

  where `V` and `G` are the two halves of one dense layer of `x` (`dense`), `Q` and `K` are one shared
  projection of `x` scaled and shifted per column (`scaled`), `s` is the word of `128^(-1/2)` that both
  programs carry, and `relu² t = max t 0 · max t 0`.  The formulas are stated over rows and columns as plain
  functions of the summation index so that a block of an array and the whole array instantiate the same term.
-/
import Idealize.ShloMosaic.PureOps.Ideal
import Idealize.ShloMosaic.Lib.ValueIdx

noncomputable section

open scoped BigOperators

namespace Cert.Spec

open Idealize.ShloMosaic

/-- A row times a column, plus a bias entry. -/
def dense (xrow wcol : Fin 512 → EReal) (b : EReal) : EReal := (∑ d : Fin 512, xrow d * wcol d) + b

/-- A row times a column, scaled and shifted. -/
def scaled (xrow wcol : Fin 512 → EReal) (g be : EReal) : EReal := (∑ d : Fin 512, xrow d * wcol d) * g + be

/-- The attention weight of a raw score: scaled by the shared word of `128^(-1/2)`, clipped at zero, squared. -/
def weight (t : EReal) : EReal :=
  max (t * Ideal.ofBits .f32 0x3DB504F3#32) (Ideal.ofBits .f32 0x00000000#32)
    * max (t * Ideal.ofBits .f32 0x3DB504F3#32) (Ideal.ofBits .f32 0x00000000#32)

/-- One output entry from a query row, the keys and values of its batch, its gate row, a column of the output
    weights, a bias entry and the residual entry. -/
def attnOut (qrow : Fin 128 → EReal) (kmat : Fin 4096 → Fin 128 → EReal) (vmat : Fin 4096 → Fin 1024 → EReal)
    (grow wcol : Fin 1024 → EReal) (bo xo : EReal) : EReal :=
  ((∑ h : Fin 1024, ((∑ p : Fin 4096, weight (∑ e : Fin 128, qrow e * kmat p e) * vmat p h) * grow h) * wcol h) + bo) + xo

end Cert.Spec

end
-- ==== Proof.Region0.lean ====
/-
  The first region's four output arrays as whole-array functions of the arrays the region finds.

  The grid is `4 × 8`: point `(b, ni)` reads rows `ni·512 … ni·512+511` of batch `b` of `x` and the whole weight
  and bias arrays, and writes the same rows of batch `b` of each output.  Every output block is therefore the
  restriction of one function of the whole arrays, and the 32 blocks tile each output array, so each array ends
  holding that function: a dense layer of `x` for the value and gate arrays, the scaled and shifted shared
  projection for the query and key arrays.
-/
import proofs.«124823_j50672024158214_1_alg».proof.Proof.Gen.KernelIdeal.Frame
import proofs.«124823_j50672024158214_1_alg».proof.Proof.ProjEntry
import proofs.«124823_j50672024158214_1_alg».proof.Proof.Spec
import Idealize.ShloMosaic.Lib.Pipeline.Value

set_option maxRecDepth 16384

noncomputable section

open scoped BigOperators

namespace Cert.KernelIdeal.Region0

open Idealize.ShloMosaic Idealize.ShloMosaic.TcCoe Idealize.ShloMosaic.ValueIdx
open Idealize.SL.Sem
open Cert.KernelIdeal Cert.KernelIdeal.Gen

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the block of `x` and the four output blocks move together, rows by the
    second grid coordinate and batches by the first; the weights and biases stay put. -/
theorem idx_facts : ∀ t : Fin cfg0.N,
    win0_0.index t (0 : Fin 3) = win0_10.index t (0 : Fin 3) ∧ win0_0.index t (1 : Fin 3) = win0_10.index t (1 : Fin 3)
    ∧ win0_0.index t (2 : Fin 3) = 0 ∧ win0_10.index t (2 : Fin 3) = 0
    ∧ win0_11.index t (0 : Fin 3) = win0_10.index t (0 : Fin 3) ∧ win0_11.index t (1 : Fin 3) = win0_10.index t (1 : Fin 3)
    ∧ win0_11.index t (2 : Fin 3) = 0
    ∧ win0_12.index t (0 : Fin 3) = win0_10.index t (0 : Fin 3) ∧ win0_12.index t (1 : Fin 3) = win0_10.index t (1 : Fin 3)
    ∧ win0_12.index t (2 : Fin 3) = 0
    ∧ win0_13.index t (0 : Fin 3) = win0_10.index t (0 : Fin 3) ∧ win0_13.index t (1 : Fin 3) = win0_10.index t (1 : Fin 3)
    ∧ win0_13.index t (2 : Fin 3) = 0
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0 ∧ win0_4.index t (0 : Fin 1) = 0
    ∧ win0_5.index t (0 : Fin 2) = 0 ∧ win0_5.index t (1 : Fin 2) = 0
    ∧ win0_6.index t (0 : Fin 1) = 0 ∧ win0_7.index t (0 : Fin 1) = 0 ∧ win0_8.index t (0 : Fin 1) = 0 ∧ win0_9.index t (0 : Fin 1) = 0
    ∧ win0_10.index t (0 : Fin 3) ≤ 3 ∧ win0_10.index t (1 : Fin 3) ≤ 7 :=
  (by decide +kernel : ∀ t : Fin grid0.N, _)

/-- Every (batch, row-block) pair is some point's. -/
theorem idx_onto : ∀ (q0 : Fin 4) (q1 : Fin 8), ∃ t : Fin cfg0.N, win0_10.index t (0 : Fin 3) = q0.val ∧ win0_10.index t (1 : Fin 3) = q1.val :=
  (by decide +kernel : ∀ (q0 : Fin 4) (q1 : Fin 8), ∃ t : Fin grid0.N, win0_10.index t (0 : Fin 3) = q0.val ∧ win0_10.index t (1 : Fin 3) = q1.val)

/-- Where point `t`'s block of `x` lies: the batch and row block of the output blocks, every column. -/
theorem x_idx (t : Fin cfg0.N) (r : Fin 512) (d : Fin 512) (B : Fin 4) (N : Fin 4096)
    (hB : B.val = win0_10.index t (0 : Fin 3)) (hN : N.val = win0_10.index t (1 : Fin 3) * 512 + r.val) :
    ((cfg0.win 0).blk t).view.emb (ix3 (0 : Fin 1) r d) = (ix3 B N d : S4x4096x512.Idx) := by
  obtain ⟨f0, f1, f2, -⟩ := idx_facts t
  funext a; apply Fin.ext
  match a with
  | ⟨0, _⟩ => show win0_0.index t (0 : Fin 3) * 1 + 1 * 0 = B.val; omega
  | ⟨1, _⟩ => show win0_0.index t (1 : Fin 3) * 512 + 1 * r.val = N.val; omega
  | ⟨2, _⟩ => show win0_0.index t (2 : Fin 3) * 512 + 1 * d.val = d.val; omega

theorem w1_idx (t : Fin cfg0.N) (d : Fin 512) (h : Fin 1024) : ((cfg0.win 1).blk t).view.emb (ix2 d h) = (ix2 d h : S512x1024.Idx) := by
  obtain ⟨-, -, -, -, -, -, -, -, -, -, -, -, -, g1a, g1b, g2, g3a, g3b, g4, g5a, g5b, g6, g7, g8, g9, -, -⟩ := idx_facts t
  funext a; apply Fin.ext
  match a with
  | ⟨0, _⟩ => show win0_1.index t (0 : Fin 2) * 512 + 1 * d.val = d.val; omega
  | ⟨1, _⟩ => show win0_1.index t (1 : Fin 2) * 1024 + 1 * h.val = h.val; omega

theorem w3_idx (t : Fin cfg0.N) (d : Fin 512) (h : Fin 1024) : ((cfg0.win 3).blk t).view.emb (ix2 d h) = (ix2 d h : S512x1024.Idx) := by
  obtain ⟨-, -, -, -, -, -, -, -, -, -, -, -, -, g1a, g1b, g2, g3a, g3b, g4, g5a, g5b, g6, g7, g8, g9, -, -⟩ := idx_facts t
  funext a; apply Fin.ext
  match a with
  | ⟨0, _⟩ => show win0_3.index t (0 : Fin 2) * 512 + 1 * d.val = d.val; omega
  | ⟨1, _⟩ => show win0_3.index t (1 : Fin 2) * 1024 + 1 * h.val = h.val; omega

theorem w5_idx (t : Fin cfg0.N) (d : Fin 512) (h : Fin 128) : ((cfg0.win 5).blk t).view.emb (ix2 d h) = (ix2 d h : S512x128.Idx) := by
  obtain ⟨-, -, -, -, -, -, -, -, -, -, -, -, -, g1a, g1b, g2, g3a, g3b, g4, g5a, g5b, g6, g7, g8, g9, -, -⟩ := idx_facts t
  funext a; apply Fin.ext
  match a with
  | ⟨0, _⟩ => show win0_5.index t (0 : Fin 2) * 512 + 1 * d.val = d.val; omega
  | ⟨1, _⟩ => show win0_5.index t (1 : Fin 2) * 128 + 1 * h.val = h.val; omega

theorem b2_idx (t : Fin cfg0.N) (h : Fin 1024) : ((cfg0.win 2).blk t).view.emb (ix1 h) = (ix1 h : S1024.Idx) := by
  obtain ⟨-, -, -, -, -, -, -, -, -, -, -, -, -, g1a, g1b, g2, g3a, g3b, g4, g5a, g5b, g6, g7, g8, g9, -, -⟩ := idx_facts t
  funext a; apply Fin.ext
  match a with
  | ⟨0, _⟩ => show win0_2.index t (0 : Fin 1) * 1024 + 1 * h.val = h.val; omega

theorem b4_idx (t : Fin cfg0.N) (h : Fin 1024) : ((cfg0.win 4).blk t).view.emb (ix1 h) = (ix1 h : S1024.Idx) := by
  obtain ⟨-, -, -, -, -, -, -, -, -, -, -, -, -, g1a, g1b, g2, g3a, g3b, g4, g5a, g5b, g6, g7, g8, g9, -, -⟩ := idx_facts t
  funext a; apply Fin.ext
  match a with
  | ⟨0, _⟩ => show win0_4.index t (0 : Fin 1) * 1024 + 1 * h.val = h.val; omega

theorem b6_idx (t : Fin cfg0.N) (h : Fin 128) : ((cfg0.win 6).blk t).view.emb (ix1 h) = (ix1 h : S128.Idx) := by
  obtain ⟨-, -, -, -, -, -, -, -, -, -, -, -, -, g1a, g1b, g2, g3a, g3b, g4, g5a, g5b, g6, g7, g8, g9, -, -⟩ := idx_facts t
  funext a; apply Fin.ext
  match a with
  | ⟨0, _⟩ => show win0_6.index t (0 : Fin 1) * 128 + 1 * h.val = h.val; omega

theorem b7_idx (t : Fin cfg0.N) (h : Fin 128) : ((cfg0.win 7).blk t).view.emb (ix1 h) = (ix1 h : S128.Idx) := by
  obtain ⟨-, -, -, -, -, -, -, -, -, -, -, -, -, g1a, g1b, g2, g3a, g3b, g4, g5a, g5b, g6, g7, g8, g9, -, -⟩ := idx_facts t
  funext a; apply Fin.ext
  match a with
  | ⟨0, _⟩ => show win0_7.index t (0 : Fin 1) * 128 + 1 * h.val = h.val; omega

theorem b8_idx (t : Fin cfg0.N) (h : Fin 128) : ((cfg0.win 8).blk t).view.emb (ix1 h) = (ix1 h : S128.Idx) := by
  obtain ⟨-, -, -, -, -, -, -, -, -, -, -, -, -, g1a, g1b, g2, g3a, g3b, g4, g5a, g5b, g6, g7, g8, g9, -, -⟩ := idx_facts t
  funext a; apply Fin.ext
  match a with
  | ⟨0, _⟩ => show win0_8.index t (0 : Fin 1) * 128 + 1 * h.val = h.val; omega

theorem b9_idx (t : Fin cfg0.N) (h : Fin 128) : ((cfg0.win 9).blk t).view.emb (ix1 h) = (ix1 h : S128.Idx) := by
  obtain ⟨-, -, -, -, -, -, -, -, -, -, -, -, -, g1a, g1b, g2, g3a, g3b, g4, g5a, g5b, g6, g7, g8, g9, -, -⟩ := idx_facts t
  funext a; apply Fin.ext
  match a with
  | ⟨0, _⟩ => show win0_9.index t (0 : Fin 1) * 128 + 1 * h.val = h.val; omega

/-- Where point `t`'s block of output window 10 lies in its array: batch and row block from the point, the column kept. -/
theorem out_idx10 (t : Fin cfg0.N) (u : Fin 1) (r : Fin 512) (h : Fin 1024) :
    ∃ (B : Fin 4) (N : Fin 4096), B.val = win0_10.index t (0 : Fin 3) ∧ N.val = win0_10.index t (1 : Fin 3) * 512 + r.val
      ∧ ((cfg0.win 10).blk t).view.emb (ix3 u r h) = (ix3 B N h : S4x4096x1024.Idx) := by
  obtain ⟨f0, f1, f2, f3, f4, f5, f6, f7, f8, f9, f10, f11, f12, -, -, -, -, -, -, -, -, -, -, -, -, b0, b1⟩ := idx_facts t
  have hr := r.isLt
  have hu : u.val = 0 := by have := u.isLt; omega
  refine ⟨⟨win0_10.index t (0 : Fin 3), by omega⟩, ⟨win0_10.index t (1 : Fin 3) * 512 + r.val, by omega⟩, rfl, rfl, ?_⟩
  funext a; apply Fin.ext
  match a with
  | ⟨0, _⟩ => show win0_10.index t (0 : Fin 3) * 1 + 1 * u.val = win0_10.index t (0 : Fin 3); omega
  | ⟨1, _⟩ => show win0_10.index t (1 : Fin 3) * 512 + 1 * r.val = win0_10.index t (1 : Fin 3) * 512 + r.val; omega
  | ⟨2, _⟩ => show win0_10.index t (2 : Fin 3) * 1024 + 1 * h.val = h.val; omega

/-- An index of the array is in point `t`'s block iff each coordinate is in the block's range on its axis. -/
theorem mem_blk10 (t : Fin cfg0.N) (i : S4x4096x1024.Idx) :
    i ∈ ((cfg0.win 10).blk t).view.set ↔ ∀ a : Fin 3, win0_10.index t a * S1x512x1024.size a ≤ (i a).val ∧ (i a).val < win0_10.index t a * S1x512x1024.size a + S1x512x1024.size a := by
  show i ∈ ((View.whole main_v8_0).slice (win0_10.rect t)).set ↔ _
  rw [View.set_slice_whole, Rect.mem_set_unit]
  exact Iff.rfl

/-- The 32 blocks tile the array. -/
theorem cover10 (i : S4x4096x1024.Idx) : ∃ t : Fin cfg0.N, (cfg0.win 10).flush t = true ∧ i ∈ ((cfg0.win 10).blk t).view.set := by
  have hi0 : (i 0).val < 4 := (i 0).isLt
  have hi1 : (i 1).val < 4096 := (i 1).isLt
  have hi2 : (i 2).val < 1024 := (i 2).isLt
  obtain ⟨t, q0, q1⟩ := idx_onto ⟨(i 0).val, hi0⟩ ⟨(i 1).val / 512, by omega⟩
  obtain ⟨f0, f1, f2, f3, f4, f5, f6, f7, f8, f9, f10, f11, f12, -, -, -, -, -, -, -, -, -, -, -, -, b0, b1⟩ := idx_facts t
  refine ⟨t, flush0_10 t, ?_⟩
  rw [mem_blk10]
  intro a
  match a with
  | ⟨0, _⟩ => show win0_10.index t (0 : Fin 3) * 1 ≤ (i 0).val ∧ (i 0).val < win0_10.index t (0 : Fin 3) * 1 + 1; simp only at q0 q1; omega
  | ⟨1, _⟩ => show win0_10.index t (1 : Fin 3) * 512 ≤ (i 1).val ∧ (i 1).val < win0_10.index t (1 : Fin 3) * 512 + 512; simp only at q0 q1; omega
  | ⟨2, _⟩ => show win0_10.index t (2 : Fin 3) * 1024 ≤ (i 2).val ∧ (i 2).val < win0_10.index t (2 : Fin 3) * 1024 + 1024; omega

/-- Where point `t`'s block of output window 11 lies in its array: batch and row block from the point, the column kept. -/
theorem out_idx11 (t : Fin cfg0.N) (u : Fin 1) (r : Fin 512) (h : Fin 1024) :
    ∃ (B : Fin 4) (N : Fin 4096), B.val = win0_10.index t (0 : Fin 3) ∧ N.val = win0_10.index t (1 : Fin 3) * 512 + r.val
      ∧ ((cfg0.win 11).blk t).view.emb (ix3 u r h) = (ix3 B N h : S4x4096x1024.Idx) := by
  obtain ⟨f0, f1, f2, f3, f4, f5, f6, f7, f8, f9, f10, f11, f12, -, -, -, -, -, -, -, -, -, -, -, -, b0, b1⟩ := idx_facts t
  have hr := r.isLt
  have hu : u.val = 0 := by have := u.isLt; omega
  refine ⟨⟨win0_10.index t (0 : Fin 3), by omega⟩, ⟨win0_10.index t (1 : Fin 3) * 512 + r.val, by omega⟩, rfl, rfl, ?_⟩
  funext a; apply Fin.ext
  match a with
  | ⟨0, _⟩ => show win0_11.index t (0 : Fin 3) * 1 + 1 * u.val = win0_10.index t (0 : Fin 3); omega
  | ⟨1, _⟩ => show win0_11.index t (1 : Fin 3) * 512 + 1 * r.val = win0_10.index t (1 : Fin 3) * 512 + r.val; omega
  | ⟨2, _⟩ => show win0_11.index t (2 : Fin 3) * 1024 + 1 * h.val = h.val; omega

/-- An index of the array is in point `t`'s block iff each coordinate is in the block's range on its axis. -/
theorem mem_blk11 (t : Fin cfg0.N) (i : S4x4096x1024.Idx) :
    i ∈ ((cfg0.win 11).blk t).view.set ↔ ∀ a : Fin 3, win0_11.index t a * S1x512x1024.size a ≤ (i a).val ∧ (i a).val < win0_11.index t a * S1x512x1024.size a + S1x512x1024.size a := by
  show i ∈ ((View.whole main_v8_1).slice (win0_11.rect t)).set ↔ _
  rw [View.set_slice_whole, Rect.mem_set_unit]
  exact Iff.rfl

/-- The 32 blocks tile the array. -/
theorem cover11 (i : S4x4096x1024.Idx) : ∃ t : Fin cfg0.N, (cfg0.win 11).flush t = true ∧ i ∈ ((cfg0.win 11).blk t).view.set := by
  have hi0 : (i 0).val < 4 := (i 0).isLt
  have hi1 : (i 1).val < 4096 := (i 1).isLt
  have hi2 : (i 2).val < 1024 := (i 2).isLt
  obtain ⟨t, q0, q1⟩ := idx_onto ⟨(i 0).val, hi0⟩ ⟨(i 1).val / 512, by omega⟩
  obtain ⟨f0, f1, f2, f3, f4, f5, f6, f7, f8, f9, f10, f11, f12, -, -, -, -, -, -, -, -, -, -, -, -, b0, b1⟩ := idx_facts t
  refine ⟨t, flush0_11 t, ?_⟩
  rw [mem_blk11]
  intro a
  match a with
  | ⟨0, _⟩ => show win0_11.index t (0 : Fin 3) * 1 ≤ (i 0).val ∧ (i 0).val < win0_11.index t (0 : Fin 3) * 1 + 1; simp only at q0 q1; omega
  | ⟨1, _⟩ => show win0_11.index t (1 : Fin 3) * 512 ≤ (i 1).val ∧ (i 1).val < win0_11.index t (1 : Fin 3) * 512 + 512; simp only at q0 q1; omega
  | ⟨2, _⟩ => show win0_11.index t (2 : Fin 3) * 1024 ≤ (i 2).val ∧ (i 2).val < win0_11.index t (2 : Fin 3) * 1024 + 1024; omega

/-- Where point `t`'s block of output window 12 lies in its array: batch and row block from the point, the column kept. -/
theorem out_idx12 (t : Fin cfg0.N) (u : Fin 1) (r : Fin 512) (h : Fin 128) :
    ∃ (B : Fin 4) (N : Fin 4096), B.val = win0_10.index t (0 : Fin 3) ∧ N.val = win0_10.index t (1 : Fin 3) * 512 + r.val
      ∧ ((cfg0.win 12).blk t).view.emb (ix3 u r h) = (ix3 B N h : S4x4096x128.Idx) := by
  obtain ⟨f0, f1, f2, f3, f4, f5, f6, f7, f8, f9, f10, f11, f12, -, -, -, -, -, -, -, -, -, -, -, -, b0, b1⟩ := idx_facts t
  have hr := r.isLt
  have hu : u.val = 0 := by have := u.isLt; omega
  refine ⟨⟨win0_10.index t (0 : Fin 3), by omega⟩, ⟨win0_10.index t (1 : Fin 3) * 512 + r.val, by omega⟩, rfl, rfl, ?_⟩
  funext a; apply Fin.ext
  match a with
  | ⟨0, _⟩ => show win0_12.index t (0 : Fin 3) * 1 + 1 * u.val = win0_10.index t (0 : Fin 3); omega
  | ⟨1, _⟩ => show win0_12.index t (1 : Fin 3) * 512 + 1 * r.val = win0_10.index t (1 : Fin 3) * 512 + r.val; omega
  | ⟨2, _⟩ => show win0_12.index t (2 : Fin 3) * 128 + 1 * h.val = h.val; omega

/-- An index of the array is in point `t`'s block iff each coordinate is in the block's range on its axis. -/
theorem mem_blk12 (t : Fin cfg0.N) (i : S4x4096x128.Idx) :
    i ∈ ((cfg0.win 12).blk t).view.set ↔ ∀ a : Fin 3, win0_12.index t a * S1x512x128.size a ≤ (i a).val ∧ (i a).val < win0_12.index t a * S1x512x128.size a + S1x512x128.size a := by
  show i ∈ ((View.whole main_v8_2).slice (win0_12.rect t)).set ↔ _
  rw [View.set_slice_whole, Rect.mem_set_unit]
  exact Iff.rfl

/-- The 32 blocks tile the array. -/
theorem cover12 (i : S4x4096x128.Idx) : ∃ t : Fin cfg0.N, (cfg0.win 12).flush t = true ∧ i ∈ ((cfg0.win 12).blk t).view.set := by
  have hi0 : (i 0).val < 4 := (i 0).isLt
  have hi1 : (i 1).val < 4096 := (i 1).isLt
  have hi2 : (i 2).val < 128 := (i 2).isLt
  obtain ⟨t, q0, q1⟩ := idx_onto ⟨(i 0).val, hi0⟩ ⟨(i 1).val / 512, by omega⟩
  obtain ⟨f0, f1, f2, f3, f4, f5, f6, f7, f8, f9, f10, f11, f12, -, -, -, -, -, -, -, -, -, -, -, -, b0, b1⟩ := idx_facts t
  refine ⟨t, flush0_12 t, ?_⟩
  rw [mem_blk12]
  intro a
  match a with
  | ⟨0, _⟩ => show win0_12.index t (0 : Fin 3) * 1 ≤ (i 0).val ∧ (i 0).val < win0_12.index t (0 : Fin 3) * 1 + 1; simp only at q0 q1; omega
  | ⟨1, _⟩ => show win0_12.index t (1 : Fin 3) * 512 ≤ (i 1).val ∧ (i 1).val < win0_12.index t (1 : Fin 3) * 512 + 512; simp only at q0 q1; omega
  | ⟨2, _⟩ => show win0_12.index t (2 : Fin 3) * 128 ≤ (i 2).val ∧ (i 2).val < win0_12.index t (2 : Fin 3) * 128 + 128; omega

/-- Where point `t`'s block of output window 13 lies in its array: batch and row block from the point, the column kept. -/
theorem out_idx13 (t : Fin cfg0.N) (u : Fin 1) (r : Fin 512) (h : Fin 128) :
    ∃ (B : Fin 4) (N : Fin 4096), B.val = win0_10.index t (0 : Fin 3) ∧ N.val = win0_10.index t (1 : Fin 3) * 512 + r.val
      ∧ ((cfg0.win 13).blk t).view.emb (ix3 u r h) = (ix3 B N h : S4x4096x128.Idx) := by
  obtain ⟨f0, f1, f2, f3, f4, f5, f6, f7, f8, f9, f10, f11, f12, -, -, -, -, -, -, -, -, -, -, -, -, b0, b1⟩ := idx_facts t
  have hr := r.isLt
  have hu : u.val = 0 := by have := u.isLt; omega
  refine ⟨⟨win0_10.index t (0 : Fin 3), by omega⟩, ⟨win0_10.index t (1 : Fin 3) * 512 + r.val, by omega⟩, rfl, rfl, ?_⟩
  funext a; apply Fin.ext
  match a with
  | ⟨0, _⟩ => show win0_13.index t (0 : Fin 3) * 1 + 1 * u.val = win0_10.index t (0 : Fin 3); omega
  | ⟨1, _⟩ => show win0_13.index t (1 : Fin 3) * 512 + 1 * r.val = win0_10.index t (1 : Fin 3) * 512 + r.val; omega
  | ⟨2, _⟩ => show win0_13.index t (2 : Fin 3) * 128 + 1 * h.val = h.val; omega

/-- An index of the array is in point `t`'s block iff each coordinate is in the block's range on its axis. -/
theorem mem_blk13 (t : Fin cfg0.N) (i : S4x4096x128.Idx) :
    i ∈ ((cfg0.win 13).blk t).view.set ↔ ∀ a : Fin 3, win0_13.index t a * S1x512x128.size a ≤ (i a).val ∧ (i a).val < win0_13.index t a * S1x512x128.size a + S1x512x128.size a := by
  show i ∈ ((View.whole main_v8_3).slice (win0_13.rect t)).set ↔ _
  rw [View.set_slice_whole, Rect.mem_set_unit]
  exact Iff.rfl

/-- The 32 blocks tile the array. -/
theorem cover13 (i : S4x4096x128.Idx) : ∃ t : Fin cfg0.N, (cfg0.win 13).flush t = true ∧ i ∈ ((cfg0.win 13).blk t).view.set := by
  have hi0 : (i 0).val < 4 := (i 0).isLt
  have hi1 : (i 1).val < 4096 := (i 1).isLt
  have hi2 : (i 2).val < 128 := (i 2).isLt
  obtain ⟨t, q0, q1⟩ := idx_onto ⟨(i 0).val, hi0⟩ ⟨(i 1).val / 512, by omega⟩
  obtain ⟨f0, f1, f2, f3, f4, f5, f6, f7, f8, f9, f10, f11, f12, -, -, -, -, -, -, -, -, -, -, -, -, b0, b1⟩ := idx_facts t
  refine ⟨t, flush0_13 t, ?_⟩
  rw [mem_blk13]
  intro a
  match a with
  | ⟨0, _⟩ => show win0_13.index t (0 : Fin 3) * 1 ≤ (i 0).val ∧ (i 0).val < win0_13.index t (0 : Fin 3) * 1 + 1; simp only at q0 q1; omega
  | ⟨1, _⟩ => show win0_13.index t (1 : Fin 3) * 512 ≤ (i 1).val ∧ (i 1).val < win0_13.index t (1 : Fin 3) * 512 + 512; simp only at q0 q1; omega
  | ⟨2, _⟩ => show win0_13.index t (2 : Fin 3) * 128 ≤ (i 2).val ∧ (i 2).val < win0_13.index t (2 : Fin 3) * 128 + 128; omega

/-- What the value array ends holding. -/
def valueArr (c : Dev nD) : S4x4096x1024.Idx → EReal := fun i =>
  Cert.Spec.dense (fun d => V c main_arg0 (ix3 (i 0) (i 1) d)) (fun d => V c main_v1 (ix2 d (i 2))) (V c main_v4 (ix1 (i 2)))

/-- What point `t` writes back to window 10 is its block of that function. -/
theorem flushed10 (c : Dev nD) (t : Fin cfg0.N) :
    (dat0 V c).flushed 10 t = ((cfg0.win 10).blk t).view.read (Elt Ideal) (valueArr V c) := by
  show (cfg0.win 10).cut (grid0.coords t) ((dat0 V c).after 10 t) = _
  rw [after0_10]
  unfold out0_10
  rw [View.canon_unit_zero hz3]
  simp only [View.ld_unit_zero (S := S1x512x512) hz3, View.ld_unit_zero (S := S512x1024) hz2, View.ld_unit_zero (S := S1024) hz1]
  refine funext fun (j : S1x512x1024.Idx) => ?_
  obtain ⟨u, r, h, rfl⟩ : ∃ (u : Fin 1) (r : Fin 512) (h : Fin 1024), j = ix3 u r h := ⟨j 0, j 1, j 2, eq_ix3 j⟩
  refine (Cert.KernelIdeal.ProjEntry.value_entry (iblk0 V c 0 t) (iblk0 V c 1 t) (iblk0 V c 2 t) u r h).trans ?_
  obtain ⟨B, N, hB, hN, hE⟩ := out_idx10 t u r h
  show Cert.Spec.dense (fun d => V c main_arg0 (((cfg0.win 0).blk t).view.emb (ix3 (0 : Fin 1) r d))) (fun d => V c main_v1 (((cfg0.win 1).blk t).view.emb (ix2 d h)))
      (V c main_v4 (((cfg0.win 2).blk t).view.emb (ix1 h))) = valueArr V c (((cfg0.win 10).blk t).view.emb (ix3 u r h))
  rw [hE]
  simp only [x_idx t r _ B N hB hN, w1_idx t, b2_idx t]
  rfl

/-- The array after the region. -/
theorem final10 (c : Dev nD) : (dat0 V c).arrAt 10 cfg0.N = valueArr V c :=
  (dat0 V c).arrAt_eq_of_cover 10 (valueArr V c) (fun t _ => flushed10 V c t) cover10

/-- What the gate array ends holding. -/
def gateArr (c : Dev nD) : S4x4096x1024.Idx → EReal := fun i =>
  Cert.Spec.dense (fun d => V c main_arg0 (ix3 (i 0) (i 1) d)) (fun d => V c main_v3 (ix2 d (i 2))) (V c main_v5 (ix1 (i 2)))

/-- What point `t` writes back to window 11 is its block of that function. -/
theorem flushed11 (c : Dev nD) (t : Fin cfg0.N) :
    (dat0 V c).flushed 11 t = ((cfg0.win 11).blk t).view.read (Elt Ideal) (gateArr V c) := by
  show (cfg0.win 11).cut (grid0.coords t) ((dat0 V c).after 11 t) = _
  rw [after0_11]
  unfold out0_11
  rw [View.canon_unit_zero hz3]
  simp only [View.ld_unit_zero (S := S1x512x512) hz3, View.ld_unit_zero (S := S512x1024) hz2, View.ld_unit_zero (S := S1024) hz1]
  refine funext fun (j : S1x512x1024.Idx) => ?_
  obtain ⟨u, r, h, rfl⟩ : ∃ (u : Fin 1) (r : Fin 512) (h : Fin 1024), j = ix3 u r h := ⟨j 0, j 1, j 2, eq_ix3 j⟩
  refine (Cert.KernelIdeal.ProjEntry.gate_entry (iblk0 V c 0 t) (iblk0 V c 3 t) (iblk0 V c 4 t) u r h).trans ?_
  obtain ⟨B, N, hB, hN, hE⟩ := out_idx11 t u r h
  show Cert.Spec.dense (fun d => V c main_arg0 (((cfg0.win 0).blk t).view.emb (ix3 (0 : Fin 1) r d))) (fun d => V c main_v3 (((cfg0.win 3).blk t).view.emb (ix2 d h)))
      (V c main_v5 (((cfg0.win 4).blk t).view.emb (ix1 h))) = gateArr V c (((cfg0.win 11).blk t).view.emb (ix3 u r h))
  rw [hE]
  simp only [x_idx t r _ B N hB hN, w3_idx t, b4_idx t]
  rfl

/-- The array after the region. -/
theorem final11 (c : Dev nD) : (dat0 V c).arrAt 11 cfg0.N = gateArr V c :=
  (dat0 V c).arrAt_eq_of_cover 11 (gateArr V c) (fun t _ => flushed11 V c t) cover11

/-- What the query array ends holding. -/
def queryArr (c : Dev nD) : S4x4096x128.Idx → EReal := fun i =>
  Cert.Spec.scaled (fun d => V c main_arg0 (ix3 (i 0) (i 1) d)) (fun d => V c main_v6 (ix2 d (i 2))) (V c main_arg4 (ix1 (i 2))) (V c main_arg5 (ix1 (i 2)))

/-- What point `t` writes back to window 12 is its block of that function. -/
theorem flushed12 (c : Dev nD) (t : Fin cfg0.N) :
    (dat0 V c).flushed 12 t = ((cfg0.win 12).blk t).view.read (Elt Ideal) (queryArr V c) := by
  show (cfg0.win 12).cut (grid0.coords t) ((dat0 V c).after 12 t) = _
  rw [after0_12]
  unfold out0_12
  rw [View.canon_unit_zero hz3]
  simp only [View.ld_unit_zero (S := S1x512x512) hz3, View.ld_unit_zero (S := S512x128) hz2, View.ld_unit_zero (S := S128) hz1]
  refine funext fun (j : S1x512x128.Idx) => ?_
  obtain ⟨u, r, h, rfl⟩ : ∃ (u : Fin 1) (r : Fin 512) (h : Fin 128), j = ix3 u r h := ⟨j 0, j 1, j 2, eq_ix3 j⟩
  refine (Cert.KernelIdeal.ProjEntry.query_entry (iblk0 V c 0 t) (iblk0 V c 5 t) (iblk0 V c 6 t) (iblk0 V c 7 t) u r h).trans ?_
  obtain ⟨B, N, hB, hN, hE⟩ := out_idx12 t u r h
  show Cert.Spec.scaled (fun d => V c main_arg0 (((cfg0.win 0).blk t).view.emb (ix3 (0 : Fin 1) r d))) (fun d => V c main_v6 (((cfg0.win 5).blk t).view.emb (ix2 d h)))
      (V c main_arg4 (((cfg0.win 6).blk t).view.emb (ix1 h))) (V c main_arg5 (((cfg0.win 7).blk t).view.emb (ix1 h)))
      = queryArr V c (((cfg0.win 12).blk t).view.emb (ix3 u r h))
  rw [hE]
  simp only [x_idx t r _ B N hB hN, w5_idx t, b6_idx t, b7_idx t]
  rfl

/-- The array after the region. -/
theorem final12 (c : Dev nD) : (dat0 V c).arrAt 12 cfg0.N = queryArr V c :=
  (dat0 V c).arrAt_eq_of_cover 12 (queryArr V c) (fun t _ => flushed12 V c t) cover12

/-- What the key array ends holding. -/
def keyArr (c : Dev nD) : S4x4096x128.Idx → EReal := fun i =>
  Cert.Spec.scaled (fun d => V c main_arg0 (ix3 (i 0) (i 1) d)) (fun d => V c main_v6 (ix2 d (i 2))) (V c main_arg6 (ix1 (i 2))) (V c main_arg7 (ix1 (i 2)))

/-- What point `t` writes back to window 13 is its block of that function. -/
theorem flushed13 (c : Dev nD) (t : Fin cfg0.N) :
    (dat0 V c).flushed 13 t = ((cfg0.win 13).blk t).view.read (Elt Ideal) (keyArr V c) := by
  show (cfg0.win 13).cut (grid0.coords t) ((dat0 V c).after 13 t) = _
  rw [after0_13]
  unfold out0_13
  rw [View.canon_unit_zero hz3]
  simp only [View.ld_unit_zero (S := S1x512x512) hz3, View.ld_unit_zero (S := S512x128) hz2, View.ld_unit_zero (S := S128) hz1]
  refine funext fun (j : S1x512x128.Idx) => ?_
  obtain ⟨u, r, h, rfl⟩ : ∃ (u : Fin 1) (r : Fin 512) (h : Fin 128), j = ix3 u r h := ⟨j 0, j 1, j 2, eq_ix3 j⟩
  refine (Cert.KernelIdeal.ProjEntry.key_entry (iblk0 V c 0 t) (iblk0 V c 5 t) (iblk0 V c 8 t) (iblk0 V c 9 t) u r h).trans ?_
  obtain ⟨B, N, hB, hN, hE⟩ := out_idx13 t u r h
  show Cert.Spec.scaled (fun d => V c main_arg0 (((cfg0.win 0).blk t).view.emb (ix3 (0 : Fin 1) r d))) (fun d => V c main_v6 (((cfg0.win 5).blk t).view.emb (ix2 d h)))
      (V c main_arg6 (((cfg0.win 8).blk t).view.emb (ix1 h))) (V c main_arg7 (((cfg0.win 9).blk t).view.emb (ix1 h)))
      = keyArr V c (((cfg0.win 13).blk t).view.emb (ix3 u r h))
  rw [hE]
  simp only [x_idx t r _ B N hB hN, w5_idx t, b8_idx t, b9_idx t]
  rfl

/-- The array after the region. -/
theorem final13 (c : Dev nD) : (dat0 V c).arrAt 13 cfg0.N = keyArr V c :=
  (dat0 V c).arrAt_eq_of_cover 13 (keyArr V c) (fun t _ => flushed13 V c t) cover13

end Cert.KernelIdeal.Region0

end
-- ==== Proof.AttnEntry.lean ====
/-
  The attention body read at one entry, over the extended reals.

  One grid point of the second kernel takes 512 query rows and gate rows and residual rows of one batch, that
  batch's whole key and value arrays, the output weights and bias, and stores a `[1, 512, 512]` block.  The
  three products are plain sums, the transpose of the keys swaps the two coordinates, a change of float format
  is the identity, and the layout steps only rename the index; so entry `(0, r, j)` of the stored block is
  `Spec.attnOut` of query row `r`, the keys, the values, gate row `r`, column `j` of the output weights, bias
  entry `j` and the residual entry `(0, r, j)`.
-/
import proofs.«124823_j50672024158214_1_alg».proof.Proof.Gen.KernelIdeal.Skeleton
import proofs.«124823_j50672024158214_1_alg».proof.Proof.LibPlainMatmul
import proofs.«124823_j50672024158214_1_alg».proof.Proof.Spec
import Idealize.ShloMosaic.Lib.ValueLayout
import Idealize.ShloMosaic.Lib.ValueIdx
import Idealize.ShloMosaic.PureOps.Ideal.Laws

noncomputable section

open scoped BigOperators

namespace Cert.KernelIdeal.AttnEntry

open Idealize.ShloMosaic Idealize.ShloMosaic.ValueIdx Cert.KernelIdeal Cert.KernelIdeal.Gen

/-- The raw scores: query rows against the transposed keys, at `(r, p)`. -/
theorem scores_entry (q : Vec Ideal S1x512x128 .bf16) (k : Vec Ideal S1x4096x128 .bf16) (r : Fin 512) (p : Fin 4096) :
    matmul dot_S512x128_S128x4096_S512x4096_1_0_0_1_n_n none
        (shapeCast S512x128 q shapeCasts_S1x512x128_S512x128 : FVec Ideal S512x128 .bf16)
        (transpose S128x4096 [1, 0] (shapeCast S4096x128 k shapeCasts_S1x4096x128_S4096x128 : FVec Ideal S4096x128 .bf16)
          transposes_S4096x128_p1_0_S128x4096)
        (constant (F := Ideal) S512x4096 .f32 0x00000000#32) (ix2 r p)
      = ∑ e : Fin 128, q (ix3 (0 : Fin 1) r e) * k (ix3 (0 : Fin 1) p e) := by
  refine (Cert.PlainMatmul.matmul_zero_apply (M := 512) (K := 128) (N := 4096) none _ _ r p).trans ?_
  refine Finset.sum_congr rfl fun e _ => ?_
  rw [transpose_ix2_apply, shapeCast_1ab_ab_apply, shapeCast_1ab_ab_apply]

/-- The stored block at `(u, r, j)`. -/
theorem out_entry (q : Vec Ideal S1x512x128 .bf16) (k : Vec Ideal S1x4096x128 .bf16) (v : Vec Ideal S1x4096x1024 .bf16)
    (gate : Vec Ideal S1x512x1024 .bf16) (wout : Vec Ideal S1024x512 .bf16) (bout : Vec Ideal S512 .f32)
    (x : Vec Ideal S1x512x512 .f32) (u : Fin 1) (r : Fin 512) (j : Fin 512) :
    k1_pay1 (k1_pay2 q k v gate wout bout x) (ix3 u r j)
      = Cert.Spec.attnOut (fun e => q (ix3 (0 : Fin 1) r e)) (fun p e => k (ix3 (0 : Fin 1) p e))
          (fun p h => v (ix3 (0 : Fin 1) p h)) (fun h => gate (ix3 (0 : Fin 1) r h)) (fun h => wout (ix2 h j))
          (bout (ix1 j)) (x (ix3 (0 : Fin 1) r j)) := by
  unfold k1_pay1
  rw [shapeCast_ab_1ab_apply]
  unfold k1_pay2
  rw [addf_apply, addf_apply, shapeCast_1ab_ab_apply, broadcastTo_1b_ab_apply, shapeCast_a_1a_apply]
  unfold Cert.Spec.attnOut
  refine congrArg (· + x (ix3 (0 : Fin 1) r j)) (congrArg (· + bout (ix1 j)) ?_)
  refine (Cert.PlainMatmul.matmul_zero_apply (M := 512) (K := 1024) (N := 512) none _ _ r j).trans ?_
  refine Finset.sum_congr rfl fun h _ => ?_
  rw [shapeCast_self, truncf_apply, mulf_apply, extf_apply, shapeCast_1ab_ab_apply]
  refine congrArg (· * wout (ix2 h j)) (congrArg (· * gate (ix3 (0 : Fin 1) r h)) ?_)
  refine (Cert.PlainMatmul.matmul_zero_apply (M := 512) (K := 4096) (N := 1024) none _ _ r h).trans ?_
  refine Finset.sum_congr rfl fun p _ => ?_
  rw [shapeCast_1ab_ab_apply, truncf_apply, mulf_apply, maximumf_apply, mulf_apply, broadcast_apply, broadcast_apply,
    scores_entry]
  rfl

end Cert.KernelIdeal.AttnEntry

end
-- ==== Proof.Region1.lean ====
/-
  The second region's output array as one whole-array function of the arrays the region finds.

  The grid is `4 × 8`: point `(b, qi)` reads query, gate and residual rows `qi·512 … qi·512+511` of batch `b`, the
  whole key and value arrays of batch `b`, the output weights and bias, and writes the same rows of batch `b` of
  the result.  Every output block is the restriction of `Spec.attnOut` over the whole arrays, and the 32 blocks
  tile the result array, so the array ends holding that function.
-/
import proofs.«124823_j50672024158214_1_alg».proof.Proof.Gen.KernelIdeal.Frame
import proofs.«124823_j50672024158214_1_alg».proof.Proof.AttnEntry
import proofs.«124823_j50672024158214_1_alg».proof.Proof.Spec
import Idealize.ShloMosaic.Lib.Pipeline.Value

set_option maxRecDepth 16384

noncomputable section

open scoped BigOperators

namespace Cert.KernelIdeal.Region1

open Idealize.ShloMosaic Idealize.ShloMosaic.TcCoe Idealize.ShloMosaic.ValueIdx
open Idealize.SL.Sem
open Cert.KernelIdeal Cert.KernelIdeal.Gen

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the query, gate, residual and output blocks move together, rows by the
    second grid coordinate and batches by the first; the key and value blocks are whole batches; the output weights
    and bias stay put. -/
theorem idx_facts : ∀ t : Fin cfg1.N,
    win1_0.index t (0 : Fin 3) = win1_7.index t (0 : Fin 3) ∧ win1_0.index t (1 : Fin 3) = win1_7.index t (1 : Fin 3)
    ∧ win1_0.index t (2 : Fin 3) = 0 ∧ win1_7.index t (2 : Fin 3) = 0
    ∧ win1_3.index t (0 : Fin 3) = win1_7.index t (0 : Fin 3) ∧ win1_3.index t (1 : Fin 3) = win1_7.index t (1 : Fin 3)
    ∧ win1_3.index t (2 : Fin 3) = 0
    ∧ win1_4.index t (0 : Fin 3) = win1_7.index t (0 : Fin 3) ∧ win1_4.index t (1 : Fin 3) = win1_7.index t (1 : Fin 3)
    ∧ win1_4.index t (2 : Fin 3) = 0
    ∧ win1_1.index t (0 : Fin 3) = win1_7.index t (0 : Fin 3) ∧ win1_1.index t (1 : Fin 3) = 0 ∧ win1_1.index t (2 : Fin 3) = 0
    ∧ win1_2.index t (0 : Fin 3) = win1_7.index t (0 : Fin 3) ∧ win1_2.index t (1 : Fin 3) = 0 ∧ win1_2.index t (2 : Fin 3) = 0
    ∧ win1_5.index t (0 : Fin 2) = 0 ∧ win1_5.index t (1 : Fin 2) = 0 ∧ win1_6.index t (0 : Fin 1) = 0
    ∧ win1_7.index t (0 : Fin 3) ≤ 3 ∧ win1_7.index t (1 : Fin 3) ≤ 7 :=
  (by decide +kernel : ∀ t : Fin grid1.N, _)

/-- Every (batch, row-block) pair is some point's. -/
theorem idx_onto : ∀ (q0 : Fin 4) (q1 : Fin 8), ∃ t : Fin cfg1.N, win1_7.index t (0 : Fin 3) = q0.val ∧ win1_7.index t (1 : Fin 3) = q1.val :=
  (by decide +kernel : ∀ (q0 : Fin 4) (q1 : Fin 8), ∃ t : Fin grid1.N, win1_7.index t (0 : Fin 3) = q0.val ∧ win1_7.index t (1 : Fin 3) = q1.val)

theorem row0_idx (t : Fin cfg1.N) (r : Fin 512) (e : Fin 128) (B : Fin 4) (N : Fin 4096)
    (hB : B.val = win1_7.index t (0 : Fin 3)) (hN : N.val = win1_7.index t (1 : Fin 3) * 512 + r.val) :
    ((cfg1.win 0).blk t).view.emb (ix3 (0 : Fin 1) r e) = (ix3 B N e : S4x4096x128.Idx) := by
  obtain ⟨a0, a1, a2, a3, c0, c1, c2, d0, d1, d2, -⟩ := idx_facts t
  funext a; apply Fin.ext
  match a with
  | ⟨0, _⟩ => show win1_0.index t (0 : Fin 3) * 1 + 1 * 0 = B.val; omega
  | ⟨1, _⟩ => show win1_0.index t (1 : Fin 3) * 512 + 1 * r.val = N.val; omega
  | ⟨2, _⟩ => show win1_0.index t (2 : Fin 3) * 128 + 1 * e.val = e.val; omega

theorem row3_idx (t : Fin cfg1.N) (r : Fin 512) (e : Fin 1024) (B : Fin 4) (N : Fin 4096)
    (hB : B.val = win1_7.index t (0 : Fin 3)) (hN : N.val = win1_7.index t (1 : Fin 3) * 512 + r.val) :
    ((cfg1.win 3).blk t).view.emb (ix3 (0 : Fin 1) r e) = (ix3 B N e : S4x4096x1024.Idx) := by
  obtain ⟨a0, a1, a2, a3, c0, c1, c2, d0, d1, d2, -⟩ := idx_facts t
  funext a; apply Fin.ext
  match a with
  | ⟨0, _⟩ => show win1_3.index t (0 : Fin 3) * 1 + 1 * 0 = B.val; omega
  | ⟨1, _⟩ => show win1_3.index t (1 : Fin 3) * 512 + 1 * r.val = N.val; omega
  | ⟨2, _⟩ => show win1_3.index t (2 : Fin 3) * 1024 + 1 * e.val = e.val; omega

theorem row4_idx (t : Fin cfg1.N) (r : Fin 512) (e : Fin 512) (B : Fin 4) (N : Fin 4096)
    (hB : B.val = win1_7.index t (0 : Fin 3)) (hN : N.val = win1_7.index t (1 : Fin 3) * 512 + r.val) :
    ((cfg1.win 4).blk t).view.emb (ix3 (0 : Fin 1) r e) = (ix3 B N e : S4x4096x512.Idx) := by
  obtain ⟨a0, a1, a2, a3, c0, c1, c2, d0, d1, d2, -⟩ := idx_facts t
  funext a; apply Fin.ext
  match a with
  | ⟨0, _⟩ => show win1_4.index t (0 : Fin 3) * 1 + 1 * 0 = B.val; omega
  | ⟨1, _⟩ => show win1_4.index t (1 : Fin 3) * 512 + 1 * r.val = N.val; omega
  | ⟨2, _⟩ => show win1_4.index t (2 : Fin 3) * 512 + 1 * e.val = e.val; omega

theorem batch1_idx (t : Fin cfg1.N) (p : Fin 4096) (e : Fin 128) (B : Fin 4) (hB : B.val = win1_7.index t (0 : Fin 3)) :
    ((cfg1.win 1).blk t).view.emb (ix3 (0 : Fin 1) p e) = (ix3 B p e : S4x4096x128.Idx) := by
  obtain ⟨-, -, -, -, -, -, -, -, -, -, k0, k1, k2, v0, v1, v2, -⟩ := idx_facts t
  funext a; apply Fin.ext
  match a with
  | ⟨0, _⟩ => show win1_1.index t (0 : Fin 3) * 1 + 1 * 0 = B.val; omega
  | ⟨1, _⟩ => show win1_1.index t (1 : Fin 3) * 4096 + 1 * p.val = p.val; omega
  | ⟨2, _⟩ => show win1_1.index t (2 : Fin 3) * 128 + 1 * e.val = e.val; omega

theorem batch2_idx (t : Fin cfg1.N) (p : Fin 4096) (e : Fin 1024) (B : Fin 4) (hB : B.val = win1_7.index t (0 : Fin 3)) :
    ((cfg1.win 2).blk t).view.emb (ix3 (0 : Fin 1) p e) = (ix3 B p e : S4x4096x1024.Idx) := by
  obtain ⟨-, -, -, -, -, -, -, -, -, -, k0, k1, k2, v0, v1, v2, -⟩ := idx_facts t
  funext a; apply Fin.ext
  match a with
  | ⟨0, _⟩ => show win1_2.index t (0 : Fin 3) * 1 + 1 * 0 = B.val; omega
  | ⟨1, _⟩ => show win1_2.index t (1 : Fin 3) * 4096 + 1 * p.val = p.val; omega
  | ⟨2, _⟩ => show win1_2.index t (2 : Fin 3) * 1024 + 1 * e.val = e.val; omega

theorem w5_idx (t : Fin cfg1.N) (h : Fin 1024) (j : Fin 512) : ((cfg1.win 5).blk t).view.emb (ix2 h j) = (ix2 h j : S1024x512.Idx) := by
  obtain ⟨-, -, -, -, -, -, -, -, -, -, -, -, -, -, -, -, w0, w1, b0, -⟩ := idx_facts t
  funext a; apply Fin.ext
  match a with
  | ⟨0, _⟩ => show win1_5.index t (0 : Fin 2) * 1024 + 1 * h.val = h.val; omega
  | ⟨1, _⟩ => show win1_5.index t (1 : Fin 2) * 512 + 1 * j.val = j.val; omega

theorem b6_idx (t : Fin cfg1.N) (j : Fin 512) : ((cfg1.win 6).blk t).view.emb (ix1 j) = (ix1 j : S512.Idx) := by
  obtain ⟨-, -, -, -, -, -, -, -, -, -, -, -, -, -, -, -, w0, w1, b0, -⟩ := idx_facts t
  funext a; apply Fin.ext
  match a with
  | ⟨0, _⟩ => show win1_6.index t (0 : Fin 1) * 512 + 1 * j.val = j.val; omega

/-- Where point `t`'s output block lies in the result array. -/
theorem out_idx (t : Fin cfg1.N) (u : Fin 1) (r : Fin 512) (j : Fin 512) :
    ∃ (B : Fin 4) (N : Fin 4096), B.val = win1_7.index t (0 : Fin 3) ∧ N.val = win1_7.index t (1 : Fin 3) * 512 + r.val
      ∧ ((cfg1.win 7).blk t).view.emb (ix3 u r j) = (ix3 B N j : S4x4096x512.Idx) := by
  obtain ⟨-, -, -, o2, -, -, -, -, -, -, -, -, -, -, -, -, -, -, -, b0, b1⟩ := idx_facts t
  have hr := r.isLt
  have hu : u.val = 0 := by have := u.isLt; omega
  refine ⟨⟨win1_7.index t (0 : Fin 3), by omega⟩, ⟨win1_7.index t (1 : Fin 3) * 512 + r.val, by omega⟩, rfl, rfl, ?_⟩
  funext a; apply Fin.ext
  match a with
  | ⟨0, _⟩ => show win1_7.index t (0 : Fin 3) * 1 + 1 * u.val = win1_7.index t (0 : Fin 3); omega
  | ⟨1, _⟩ => show win1_7.index t (1 : Fin 3) * 512 + 1 * r.val = win1_7.index t (1 : Fin 3) * 512 + r.val; omega
  | ⟨2, _⟩ => show win1_7.index t (2 : Fin 3) * 512 + 1 * j.val = j.val; omega

/-- An index of the array is in point `t`'s block iff each coordinate is in the block's range on its axis. -/
theorem mem_blk (t : Fin cfg1.N) (i : S4x4096x512.Idx) :
    i ∈ ((cfg1.win 7).blk t).view.set ↔ ∀ a : Fin 3, win1_7.index t a * S1x512x512.size a ≤ (i a).val ∧ (i a).val < win1_7.index t a * S1x512x512.size a + S1x512x512.size a := by
  show i ∈ ((View.whole main_v9).slice (win1_7.rect t)).set ↔ _
  rw [View.set_slice_whole, Rect.mem_set_unit]
  exact Iff.rfl

/-- The 32 blocks tile the result array. -/
theorem cover (i : S4x4096x512.Idx) : ∃ t : Fin cfg1.N, (cfg1.win 7).flush t = true ∧ i ∈ ((cfg1.win 7).blk t).view.set := by
  have hi0 : (i 0).val < 4 := (i 0).isLt
  have hi1 : (i 1).val < 4096 := (i 1).isLt
  have hi2 : (i 2).val < 512 := (i 2).isLt
  obtain ⟨t, q0, q1⟩ := idx_onto ⟨(i 0).val, hi0⟩ ⟨(i 1).val / 512, by omega⟩
  obtain ⟨-, -, -, o2, -, -, -, -, -, -, -, -, -, -, -, -, -, -, -, b0, b1⟩ := idx_facts t
  refine ⟨t, flush1_7 t, ?_⟩
  rw [mem_blk]
  intro a
  match a with
  | ⟨0, _⟩ => show win1_7.index t (0 : Fin 3) * 1 ≤ (i 0).val ∧ (i 0).val < win1_7.index t (0 : Fin 3) * 1 + 1; simp only at q0 q1; omega
  | ⟨1, _⟩ => show win1_7.index t (1 : Fin 3) * 512 ≤ (i 1).val ∧ (i 1).val < win1_7.index t (1 : Fin 3) * 512 + 512; simp only at q0 q1; omega
  | ⟨2, _⟩ => show win1_7.index t (2 : Fin 3) * 512 ≤ (i 2).val ∧ (i 2).val < win1_7.index t (2 : Fin 3) * 512 + 512; omega

/-- What the result array ends holding. -/
def attnArr (c : Dev nD) : S4x4096x512.Idx → EReal := fun i =>
  Cert.Spec.attnOut (fun e => V c main_v8_2 (ix3 (i 0) (i 1) e)) (fun p e => V c main_v8_3 (ix3 (i 0) p e))
    (fun p h => V c main_v8_0 (ix3 (i 0) p h)) (fun h => V c main_v8_1 (ix3 (i 0) (i 1) h))
    (fun h => V c main_v7 (ix2 h (i 2))) (V c main_arg9 (ix1 (i 2))) (V c main_arg0 i)

/-- What point `t` writes back is its block of that function. -/
theorem flushed (c : Dev nD) (t : Fin cfg1.N) :
    (dat1 V c).flushed 7 t = ((cfg1.win 7).blk t).view.read (Elt Ideal) (attnArr V c) := by
  show (cfg1.win 7).cut (grid1.coords t) ((dat1 V c).after 7 t) = _
  rw [after1_7]
  unfold out1_7
  rw [View.canon_unit_zero hz3]
  simp only [View.ld_unit_zero (S := S1x512x128) hz3, View.ld_unit_zero (S := S1x4096x128) hz3, View.ld_unit_zero (S := S1x4096x1024) hz3,
    View.ld_unit_zero (S := S1x512x1024) hz3, View.ld_unit_zero (S := S1x512x512) hz3, View.ld_unit_zero (S := S1024x512) hz2,
    View.ld_unit_zero (S := S512) hz1]
  refine funext fun (y : S1x512x512.Idx) => ?_
  obtain ⟨u, r, j, rfl⟩ : ∃ (u : Fin 1) (r : Fin 512) (j : Fin 512), y = ix3 u r j := ⟨y 0, y 1, y 2, eq_ix3 y⟩
  refine (Cert.KernelIdeal.AttnEntry.out_entry (iblk1 V c 0 t) (iblk1 V c 1 t) (iblk1 V c 2 t) (iblk1 V c 3 t) (iblk1 V c 5 t)
    (iblk1 V c 6 t) (iblk1 V c 4 t) u r j).trans ?_
  obtain ⟨B, N, hB, hN, hE⟩ := out_idx t u r j
  show Cert.Spec.attnOut (fun e => V c main_v8_2 (((cfg1.win 0).blk t).view.emb (ix3 (0 : Fin 1) r e)))
      (fun p e => V c main_v8_3 (((cfg1.win 1).blk t).view.emb (ix3 (0 : Fin 1) p e)))
      (fun p h => V c main_v8_0 (((cfg1.win 2).blk t).view.emb (ix3 (0 : Fin 1) p h)))
      (fun h => V c main_v8_1 (((cfg1.win 3).blk t).view.emb (ix3 (0 : Fin 1) r h)))
      (fun h => V c main_v7 (((cfg1.win 5).blk t).view.emb (ix2 h j)))
      (V c main_arg9 (((cfg1.win 6).blk t).view.emb (ix1 j)))
      (V c main_arg0 (((cfg1.win 4).blk t).view.emb (ix3 (0 : Fin 1) r j)))
    = attnArr V c (((cfg1.win 7).blk t).view.emb (ix3 u r j))
  rw [hE]
  simp only [row0_idx t r _ B N hB hN, row3_idx t r _ B N hB hN, row4_idx t r _ B N hB hN, batch1_idx t _ _ B hB,
    batch2_idx t _ _ B hB, w5_idx t, b6_idx t]
  rfl

/-- The result array after the region. -/
theorem final (c : Dev nD) : (dat1 V c).arrAt 7 cfg1.N = attnArr V c :=
  (dat1 V c).arrAt_eq_of_cover 7 (attnArr V c) (fun t _ => flushed V c t) cover

end Cert.KernelIdeal.Region1

end
-- ==== Proof.RefStages.lean ====
/-
  The reference's stages as the formulas of `Spec`.

  Read one operation at a time, the reference's value array and gate array are the two column halves of one dense
  layer of `x`; its query and key arrays are the shared projection of `x`, scaled and shifted per column; and its
  result at `(b, n, j)` is `Spec.attnOut` of query row `(b, n)`, batch `b`'s keys and values, gate row `(b, n)`,
  column `j` of the output weights, bias entry `j` and `x (b, n, j)`.  The broadcasts and slices only rename the
  index; the four contractions are plain sums.
-/
import proofs.«124823_j50672024158214_1_alg».proof.Proof.Gen.ReferenceIdeal.Read
import proofs.«124823_j50672024158214_1_alg».proof.Proof.Spec

noncomputable section

open scoped BigOperators

namespace Cert.ReferenceIdeal.Stages

open Idealize.ShloMosaic Idealize.ShloMosaic.ValueIdx Cert.ReferenceIdeal Cert.ReferenceIdeal.Read

/-- Column `h` of the first half of the 2048 hidden columns. -/
abbrev lo (h : Fin 1024) : Fin 2048 := ⟨h.val, by have := h.isLt; omega⟩
/-- Column `h` of the second half. -/
abbrev hi (h : Fin 1024) : Fin 2048 := ⟨1024 + h.val, by have := h.isLt; omega⟩

variable (x0 : (⟨S4x4096x512, .f32⟩ : BufTy).Contents (Elt Ideal)) (x1 : (⟨S512x2048, .f32⟩ : BufTy).Contents (Elt Ideal))
  (x2 : (⟨S2048, .f32⟩ : BufTy).Contents (Elt Ideal)) (x3 : (⟨S512x128, .f32⟩ : BufTy).Contents (Elt Ideal))
  (x4 x5 x6 x7 : (⟨S128, .f32⟩ : BufTy).Contents (Elt Ideal)) (x8 : (⟨S1024x512, .f32⟩ : BufTy).Contents (Elt Ideal))
  (x9 : (⟨S512, .f32⟩ : BufTy).Contents (Elt Ideal))

/-- The hidden layer before it is split, at `(b, n, c)`. -/
theorem hidden_entry (b : Fin 4) (n : Fin 4096) (c : Fin 2048) :
    val_main_v3 (F := Ideal) x0 x1 x2 (ix3 b n c)
      = Cert.Spec.dense (fun d => x0 (ix3 b n d)) (fun d => x1 (ix2 d c)) (x2 (ix1 c)) := by
  rw [val_main_v3_apply, val_main_v0_apply, val_main_v2_apply, val_main_v1_apply]
  have e1 : ∀ k, lidx_main_v0 (ix3 b n c) k = ix3 b n k := fun k => funext fun a => by
    match a with | ⟨0, _⟩ => rfl | ⟨1, _⟩ => rfl | ⟨2, _⟩ => rfl
  have e2 : ∀ k, ridx_main_v0 (ix3 b n c) k = ix2 k c := fun k => funext fun a => by
    match a with | ⟨0, _⟩ => rfl | ⟨1, _⟩ => rfl
  have e3 : idx_main_v1 (idx_main_v2 (ix3 b n c)) = ix1 c := funext fun a => by
    match a with | ⟨0, _⟩ => rfl
  simp only [e1, e2, e3]
  rfl

/-- The value array is the first half of the hidden layer. -/
theorem value_entry (b : Fin 4) (n : Fin 4096) (h : Fin 1024) :
    val_main_v4 (F := Ideal) x0 x1 x2 (ix3 b n h)
      = Cert.Spec.dense (fun d => x0 (ix3 b n d)) (fun d => x1 (ix2 d (lo h))) (x2 (ix1 (lo h))) := by
  rw [val_main_v4_apply]
  have e : idx_main_v4 (ix3 b n h) = ix3 b n (lo h) := funext fun a => by
    match a with | ⟨0, _⟩ => rfl | ⟨1, _⟩ => rfl | ⟨2, _⟩ => rfl
  rw [e, hidden_entry]

/-- The gate array is the second half. -/
theorem gate_entry (b : Fin 4) (n : Fin 4096) (h : Fin 1024) :
    val_main_v5 (F := Ideal) x0 x1 x2 (ix3 b n h)
      = Cert.Spec.dense (fun d => x0 (ix3 b n d)) (fun d => x1 (ix2 d (hi h))) (x2 (ix1 (hi h))) := by
  rw [val_main_v5_apply]
  have e : idx_main_v5 (ix3 b n h) = ix3 b n (hi h) := funext fun a => by
    match a with | ⟨0, _⟩ => rfl | ⟨1, _⟩ => rfl | ⟨2, _⟩ => rfl
  rw [e, hidden_entry]

/-- The shared projection, at `(b, n, e)`. -/
theorem shared_entry (b : Fin 4) (n : Fin 4096) (e : Fin 128) :
    val_main_v6 (F := Ideal) x0 x3 (ix3 b n e) = ∑ d : Fin 512, x0 (ix3 b n d) * x3 (ix2 d e) := by
  rw [val_main_v6_apply]
  have e1 : ∀ k, lidx_main_v6 (ix3 b n e) k = ix3 b n k := fun k => funext fun a => by
    match a with | ⟨0, _⟩ => rfl | ⟨1, _⟩ => rfl | ⟨2, _⟩ => rfl
  have e2 : ∀ k, ridx_main_v6 (ix3 b n e) k = ix2 k e := fun k => funext fun a => by
    match a with | ⟨0, _⟩ => rfl | ⟨1, _⟩ => rfl
  simp only [e1, e2]

/-- The query array. -/
theorem query_entry (b : Fin 4) (n : Fin 4096) (e : Fin 128) :
    val_main_v12 (F := Ideal) x0 x3 x4 x5 (ix3 b n e)
      = Cert.Spec.scaled (fun d => x0 (ix3 b n d)) (fun d => x3 (ix2 d e)) (x4 (ix1 e)) (x5 (ix1 e)) := by
  rw [val_main_v12_apply, val_main_v9_apply, shared_entry, val_main_v8_apply, val_main_v7_apply, val_main_v11_apply,
    val_main_v10_apply]
  have e1 : idx_main_v7 (idx_main_v8 (ix3 b n e)) = ix1 e := funext fun a => by
    match a with | ⟨0, _⟩ => rfl
  have e2 : idx_main_v10 (idx_main_v11 (ix3 b n e)) = ix1 e := funext fun a => by
    match a with | ⟨0, _⟩ => rfl
  rw [e1, e2]
  rfl

/-- The key array. -/
theorem key_entry (b : Fin 4) (n : Fin 4096) (e : Fin 128) :
    val_main_v18 (F := Ideal) x0 x3 x6 x7 (ix3 b n e)
      = Cert.Spec.scaled (fun d => x0 (ix3 b n d)) (fun d => x3 (ix2 d e)) (x6 (ix1 e)) (x7 (ix1 e)) := by
  rw [val_main_v18_apply, val_main_v15_apply, shared_entry, val_main_v14_apply, val_main_v13_apply, val_main_v17_apply,
    val_main_v16_apply]
  have e1 : idx_main_v13 (idx_main_v14 (ix3 b n e)) = ix1 e := funext fun a => by
    match a with | ⟨0, _⟩ => rfl
  have e2 : idx_main_v16 (idx_main_v17 (ix3 b n e)) = ix1 e := funext fun a => by
    match a with | ⟨0, _⟩ => rfl
  rw [e1, e2]
  rfl

/-- The attention weights, at `(b, n, p)`. -/
theorem weight_entry (b : Fin 4) (n p : Fin 4096) :
    val_main_v23 (F := Ideal) x0 x3 x4 x5 x6 x7 (ix3 b n p)
      = Cert.Spec.weight (∑ e : Fin 128, val_main_v12 (F := Ideal) x0 x3 x4 x5 (ix3 b n e) * val_main_v18 (F := Ideal) x0 x3 x6 x7 (ix3 b p e)) := by
  rw [val_main_v23_apply, val_main_v22_apply, val_main_v21_apply, val_main_v19_apply, val_main_v20_apply, val_main_cst_apply,
    val_main_call0_v0_apply, val_main_call0_cst_apply]
  have e1 : ∀ k, lidx_main_v19 (ix3 b n p) k = ix3 b n k := fun k => funext fun a => by
    match a with | ⟨0, _⟩ => rfl | ⟨1, _⟩ => rfl | ⟨2, _⟩ => rfl
  have e2 : ∀ k, ridx_main_v19 (ix3 b n p) k = ix3 b p k := fun k => funext fun a => by
    match a with | ⟨0, _⟩ => rfl | ⟨1, _⟩ => rfl | ⟨2, _⟩ => rfl
  simp only [e1, e2]
  rfl

/-- The result, at `(b, n, j)`. -/
theorem out_entry (b : Fin 4) (n : Fin 4096) (j : Fin 512) :
    val_main_v30 (F := Ideal) x0 x1 x2 x3 x4 x5 x6 x7 x8 x9 (ix3 b n j)
      = Cert.Spec.attnOut (fun e => val_main_v12 (F := Ideal) x0 x3 x4 x5 (ix3 b n e))
          (fun p e => val_main_v18 (F := Ideal) x0 x3 x6 x7 (ix3 b p e))
          (fun p h => val_main_v4 (F := Ideal) x0 x1 x2 (ix3 b p h))
          (fun h => val_main_v5 (F := Ideal) x0 x1 x2 (ix3 b n h))
          (fun h => x8 (ix2 h j)) (x9 (ix1 j)) (x0 (ix3 b n j)) := by
  rw [val_main_v30_apply, val_main_v29_apply, val_main_v26_apply, val_main_v28_apply, val_main_v27_apply]
  have e1 : ∀ k, lidx_main_v26 (ix3 b n j) k = ix3 b n k := fun k => funext fun a => by
    match a with | ⟨0, _⟩ => rfl | ⟨1, _⟩ => rfl | ⟨2, _⟩ => rfl
  have e2 : ∀ k, ridx_main_v26 (ix3 b n j) k = ix2 k j := fun k => funext fun a => by
    match a with | ⟨0, _⟩ => rfl | ⟨1, _⟩ => rfl
  have e3 : idx_main_v27 (idx_main_v28 (ix3 b n j)) = ix1 j := funext fun a => by
    match a with | ⟨0, _⟩ => rfl
  have e4 : ∀ (h : Fin 1024) k, lidx_main_v24 (ix3 b n h) k = ix3 b n k := fun h k => funext fun a => by
    match a with | ⟨0, _⟩ => rfl | ⟨1, _⟩ => rfl | ⟨2, _⟩ => rfl
  have e5 : ∀ (h : Fin 1024) k, ridx_main_v24 (ix3 b n h) k = ix3 b k h := fun h k => funext fun a => by
    match a with | ⟨0, _⟩ => rfl | ⟨1, _⟩ => rfl | ⟨2, _⟩ => rfl
  simp only [e1, e2, e3, val_main_v25_apply, val_main_v24_apply, e4, e5, weight_entry]
  rfl

end Cert.ReferenceIdeal.Stages

end
-- ==== Proof.Bridge.lean ====
/-
  The kernel's result array is the reference's result, entry by entry.

  The host stretch before the first region only slices the hidden weights and biases into their value and gate
  halves and changes float formats (the identity on the extended reals).  So the arrays the first region finds are
  the arguments themselves, up to the column offset of the gate half, and its four output arrays are the reference's
  value, gate, query and key stages.  The second region finds those four arrays, `x`, the output weights and the
  output bias, and its output array is the reference's result: both are `Spec.attnOut` of the same rows and columns.
-/
import proofs.«124823_j50672024158214_1_alg».proof.Proof.KernelRun
import proofs.«124823_j50672024158214_1_alg».proof.Proof.Region0
import proofs.«124823_j50672024158214_1_alg».proof.Proof.Region1
import proofs.«124823_j50672024158214_1_alg».proof.Proof.RefStages
import Idealize.ShloMosaic.Lib.StableHlo.Run
import Idealize.ShloMosaic.Lib.ValueLayout

set_option maxRecDepth 16384

noncomputable section

open scoped BigOperators

namespace Cert.KernelIdeal.Bridge

open Idealize.ShloMosaic Idealize.ShloMosaic.TcCoe Idealize.ShloMosaic.ValueIdx Idealize.ShloMosaic.StableHlo
open Idealize.SL.Sem
open Cert.KernelIdeal Cert.KernelIdeal.Gen
open Cert.ReferenceIdeal.Stages (lo hi)

variable (m : (ℓ : Loc nD τ sig) → Buf (Elt Ideal) ℓ) (ρ : Dev nD → PrngReg)

/-! ## What the first region finds -/

theorem found_x (c : Dev nD) : V1 m ρ c main_arg0 = m ((c : Thread nD τ).loc main_arg0) := by
  show StableHlo.after hostOps0 (W0 m ρ c) (Proc.devRef .tc main_arg0) = _
  after_results <;> rfl

theorem found_qg (c : Dev nD) : V1 m ρ c main_arg4 = m ((c : Thread nD τ).loc main_arg4) := by
  show StableHlo.after hostOps0 (W0 m ρ c) (Proc.devRef .tc main_arg4) = _
  after_results <;> rfl

theorem found_qb (c : Dev nD) : V1 m ρ c main_arg5 = m ((c : Thread nD τ).loc main_arg5) := by
  show StableHlo.after hostOps0 (W0 m ρ c) (Proc.devRef .tc main_arg5) = _
  after_results <;> rfl

theorem found_kg (c : Dev nD) : V1 m ρ c main_arg6 = m ((c : Thread nD τ).loc main_arg6) := by
  show StableHlo.after hostOps0 (W0 m ρ c) (Proc.devRef .tc main_arg6) = _
  after_results <;> rfl

theorem found_kb (c : Dev nD) : V1 m ρ c main_arg7 = m ((c : Thread nD τ).loc main_arg7) := by
  show StableHlo.after hostOps0 (W0 m ρ c) (Proc.devRef .tc main_arg7) = _
  after_results <;> rfl

/-- The value weights: the first 1024 hidden columns. -/
theorem found_wv (c : Dev nD) (d : Fin 512) (h : Fin 1024) :
    V1 m ρ c main_v1 (ix2 d h) = m ((c : Thread nD τ).loc main_arg1) (ix2 d (lo h)) := by
  have e : V1 m ρ c main_v1 = (truncf (F := Ideal) .bf16 (extractStridedSlice S512x1024 ![0, 0] (m ((c : Thread nD τ).loc main_arg1)) slices_S512x2048_S512x1024_0_0) bitsLt_bf16_f32 : (⟨S512x1024, .bf16⟩ : BufTy).Contents (Elt Ideal)) := by
    show StableHlo.after hostOps0 (W0 m ρ c) (Proc.devRef .tc main_v1) = _
    after_results <;> rfl
  rw [e]
  show extractStridedSlice S512x1024 ![0, 0] (m ((c : Thread nD τ).loc main_arg1)) slices_S512x2048_S512x1024_0_0 (ix2 d h) = _
  exact slice2_axis1_apply 0 (m ((c : Thread nD τ).loc main_arg1)) slices_S512x2048_S512x1024_0_0 d h (lo h) (by show h.val = 0 + h.val; omega)

/-- The gate weights: the last 1024 hidden columns. -/
theorem found_wg (c : Dev nD) (d : Fin 512) (h : Fin 1024) :
    V1 m ρ c main_v3 (ix2 d h) = m ((c : Thread nD τ).loc main_arg1) (ix2 d (hi h)) := by
  have e : V1 m ρ c main_v3 = (truncf (F := Ideal) .bf16 (extractStridedSlice S512x1024 ![0, 1024] (m ((c : Thread nD τ).loc main_arg1)) slices_S512x2048_S512x1024_0_1024) bitsLt_bf16_f32 : (⟨S512x1024, .bf16⟩ : BufTy).Contents (Elt Ideal)) := by
    show StableHlo.after hostOps0 (W0 m ρ c) (Proc.devRef .tc main_v3) = _
    after_results <;> rfl
  rw [e]
  show extractStridedSlice S512x1024 ![0, 1024] (m ((c : Thread nD τ).loc main_arg1)) slices_S512x2048_S512x1024_0_1024 (ix2 d h) = _
  exact slice2_axis1_apply 1024 (m ((c : Thread nD τ).loc main_arg1)) slices_S512x2048_S512x1024_0_1024 d h (hi h) rfl

/-- The value bias: the first 1024 hidden entries. -/
theorem found_bv (c : Dev nD) (h : Fin 1024) :
    V1 m ρ c main_v4 (ix1 h) = m ((c : Thread nD τ).loc main_arg2) (ix1 (lo h)) := by
  have e : V1 m ρ c main_v4 = (extractStridedSlice S1024 ![0] (m ((c : Thread nD τ).loc main_arg2)) slices_S2048_S1024_0 : (⟨S1024, .f32⟩ : BufTy).Contents (Elt Ideal)) := by
    show StableHlo.after hostOps0 (W0 m ρ c) (Proc.devRef .tc main_v4) = _
    after_results <;> rfl
  rw [e]
  exact extractStridedSlice_apply ![0] _ slices_S2048_S1024_0 (ix1 h) (ix1 (lo h)) (fun a => by
    match a with | ⟨0, _⟩ => show h.val = 0 + h.val; omega)

/-- The gate bias: the last 1024 hidden entries. -/
theorem found_bg (c : Dev nD) (h : Fin 1024) :
    V1 m ρ c main_v5 (ix1 h) = m ((c : Thread nD τ).loc main_arg2) (ix1 (hi h)) := by
  have e : V1 m ρ c main_v5 = (extractStridedSlice S1024 ![1024] (m ((c : Thread nD τ).loc main_arg2)) slices_S2048_S1024_1024 : (⟨S1024, .f32⟩ : BufTy).Contents (Elt Ideal)) := by
    show StableHlo.after hostOps0 (W0 m ρ c) (Proc.devRef .tc main_v5) = _
    after_results <;> rfl
  rw [e]
  exact extractStridedSlice_apply ![1024] _ slices_S2048_S1024_1024 (ix1 h) (ix1 (hi h)) (fun a => by
    match a with | ⟨0, _⟩ => rfl)

/-- The shared query/key weights. -/
theorem found_wqk (c : Dev nD) (i : S512x128.Idx) :
    V1 m ρ c main_v6 i = m ((c : Thread nD τ).loc main_arg3) i := by
  have e : V1 m ρ c main_v6 = (truncf (F := Ideal) .bf16 (m ((c : Thread nD τ).loc main_arg3)) bitsLt_bf16_f32 : (⟨S512x128, .bf16⟩ : BufTy).Contents (Elt Ideal)) := by
    show StableHlo.after hostOps0 (W0 m ρ c) (Proc.devRef .tc main_v6) = _
    after_results <;> rfl
  rw [e]
  rfl

/-! ## What the second region finds -/

theorem found2_q (c : Dev nD) : V2 m ρ c main_v8_2 = Region0.queryArr (V1 m ρ) c :=
  (W2_arr m ρ c 12).trans (Region0.final12 (V1 m ρ) c)
theorem found2_k (c : Dev nD) : V2 m ρ c main_v8_3 = Region0.keyArr (V1 m ρ) c :=
  (W2_arr m ρ c 13).trans (Region0.final13 (V1 m ρ) c)
theorem found2_v (c : Dev nD) : V2 m ρ c main_v8_0 = Region0.valueArr (V1 m ρ) c :=
  (W2_arr m ρ c 10).trans (Region0.final10 (V1 m ρ) c)
theorem found2_g (c : Dev nD) : V2 m ρ c main_v8_1 = Region0.gateArr (V1 m ρ) c :=
  (W2_arr m ρ c 11).trans (Region0.final11 (V1 m ρ) c)

theorem found2_x (c : Dev nD) : V2 m ρ c main_arg0 = m ((c : Thread nD τ).loc main_arg0) :=
  ((W2_arr m ρ c 0).trans (((dat0 (V1 m ρ) c).arrAt_in 0 rfl _).trans (A_eq0 (V1 m ρ) c 0))).trans (found_x m ρ c)

theorem found2_bout (c : Dev nD) : V2 m ρ c main_arg9 = m ((c : Thread nD τ).loc main_arg9) := by
  refine (W2_of_ne m ρ c main_arg9 (by decide)).trans ?_
  show StableHlo.after hostOps0 (W0 m ρ c) (Proc.devRef .tc main_arg9) = _
  after_results <;> rfl

theorem found2_wout (c : Dev nD) (i : S1024x512.Idx) : V2 m ρ c main_v7 i = m ((c : Thread nD τ).loc main_arg8) i := by
  have e : V2 m ρ c main_v7 = (truncf (F := Ideal) .bf16 (m ((c : Thread nD τ).loc main_arg8)) bitsLt_bf16_f32 : (⟨S1024x512, .bf16⟩ : BufTy).Contents (Elt Ideal)) := by
    refine (W2_of_ne m ρ c main_v7 (by decide)).trans ?_
    show StableHlo.after hostOps0 (W0 m ρ c) (Proc.devRef .tc main_v7) = _
    after_results <;> rfl
  rw [e]
  rfl

/-! ## The four projected arrays are the reference's stages -/

section Generic

variable (V : (c : Dev nD) → (b : Ref sig .tc) → Buf (Elt Ideal) ((c : Thread nD τ).loc b)) (c : Dev nD)

/-- A dense half of the hidden layer over found arrays that read as the arguments do. -/
theorem dense_of (xa : S4x4096x512.Idx → EReal) (wa : S512x2048.Idx → EReal) (ba : S2048.Idx → EReal)
    (X : S4x4096x512.Idx → EReal) (Wf : S512x1024.Idx → EReal) (Bf : S1024.Idx → EReal) (off : Fin 1024 → Fin 2048)
    (hx : X = xa) (hw : ∀ d h, Wf (ix2 d h) = wa (ix2 d (off h))) (hb : ∀ h, Bf (ix1 h) = ba (ix1 (off h)))
    (b : Fin 4) (n : Fin 4096) (h : Fin 1024) :
    Cert.Spec.dense (fun d => X (ix3 b n d)) (fun d => Wf (ix2 d h)) (Bf (ix1 h))
      = Cert.Spec.dense (fun d => xa (ix3 b n d)) (fun d => wa (ix2 d (off h))) (ba (ix1 (off h))) := by
  subst hx
  simp only [hw, hb]

/-- A scaled and shifted projection over found arrays that read as the arguments do. -/
theorem scaled_of (xa : S4x4096x512.Idx → EReal) (wa : S512x128.Idx → EReal) (ga ba : S128.Idx → EReal)
    (X : S4x4096x512.Idx → EReal) (Wf : S512x128.Idx → EReal) (Gf Bf : S128.Idx → EReal)
    (hx : X = xa) (hw : ∀ i, Wf i = wa i) (hg : Gf = ga) (hb : Bf = ba)
    (b : Fin 4) (n : Fin 4096) (e : Fin 128) :
    Cert.Spec.scaled (fun d => X (ix3 b n d)) (fun d => Wf (ix2 d e)) (Gf (ix1 e)) (Bf (ix1 e))
      = Cert.Spec.scaled (fun d => xa (ix3 b n d)) (fun d => wa (ix2 d e)) (ga (ix1 e)) (ba (ix1 e)) := by
  subst hx hg hb
  simp only [hw]

/-- The attention formula over found arrays that read as given stages do. -/
theorem attn_of (Qf Kf : S4x4096x128.Idx → EReal) (Vf Gf : S4x4096x1024.Idx → EReal) (Wf : S1024x512.Idx → EReal)
    (Bf : S512.Idx → EReal) (Xf : S4x4096x512.Idx → EReal)
    (Qa Ka : S4x4096x128.Idx → EReal) (Va Ga : S4x4096x1024.Idx → EReal) (Wa : S1024x512.Idx → EReal)
    (Ba : S512.Idx → EReal) (Xa : S4x4096x512.Idx → EReal)
    (hq : ∀ b n e, Qf (ix3 b n e) = Qa (ix3 b n e)) (hk : ∀ b p e, Kf (ix3 b p e) = Ka (ix3 b p e))
    (hv : ∀ b p h, Vf (ix3 b p h) = Va (ix3 b p h)) (hg : ∀ b n h, Gf (ix3 b n h) = Ga (ix3 b n h))
    (hw : ∀ i, Wf i = Wa i) (hb : Bf = Ba) (hx : Xf = Xa) (b : Fin 4) (n : Fin 4096) (j : Fin 512) :
    Cert.Spec.attnOut (fun e => Qf (ix3 b n e)) (fun p e => Kf (ix3 b p e)) (fun p h => Vf (ix3 b p h))
        (fun h => Gf (ix3 b n h)) (fun h => Wf (ix2 h j)) (Bf (ix1 j)) (Xf (ix3 b n j))
      = Cert.Spec.attnOut (fun e => Qa (ix3 b n e)) (fun p e => Ka (ix3 b p e)) (fun p h => Va (ix3 b p h))
        (fun h => Ga (ix3 b n h)) (fun h => Wa (ix2 h j)) (Ba (ix1 j)) (Xa (ix3 b n j)) := by
  subst hb hx
  simp only [hq, hk, hv, hg, hw]

end Generic

theorem value_stage (c : Dev nD) (b : Fin 4) (p : Fin 4096) (h : Fin 1024) :
    Region0.valueArr (V1 m ρ) c (ix3 b p h)
      = Cert.ReferenceIdeal.Read.val_main_v4 (F := Ideal) (m ((c : Thread nD τ).loc main_arg0)) (m ((c : Thread nD τ).loc main_arg1)) (m ((c : Thread nD τ).loc main_arg2)) (ix3 b p h) :=
  (dense_of (m ((c : Thread nD τ).loc main_arg0)) (m ((c : Thread nD τ).loc main_arg1)) (m ((c : Thread nD τ).loc main_arg2)) (V1 m ρ c main_arg0) (V1 m ρ c main_v1) (V1 m ρ c main_v4) lo
      (found_x m ρ c) (found_wv m ρ c) (found_bv m ρ c) b p h).trans
    (Cert.ReferenceIdeal.Stages.value_entry (m ((c : Thread nD τ).loc main_arg0)) (m ((c : Thread nD τ).loc main_arg1)) (m ((c : Thread nD τ).loc main_arg2)) b p h).symm

theorem gate_stage (c : Dev nD) (b : Fin 4) (n : Fin 4096) (h : Fin 1024) :
    Region0.gateArr (V1 m ρ) c (ix3 b n h)
      = Cert.ReferenceIdeal.Read.val_main_v5 (F := Ideal) (m ((c : Thread nD τ).loc main_arg0)) (m ((c : Thread nD τ).loc main_arg1)) (m ((c : Thread nD τ).loc main_arg2)) (ix3 b n h) :=
  (dense_of (m ((c : Thread nD τ).loc main_arg0)) (m ((c : Thread nD τ).loc main_arg1)) (m ((c : Thread nD τ).loc main_arg2)) (V1 m ρ c main_arg0) (V1 m ρ c main_v3) (V1 m ρ c main_v5) hi
      (found_x m ρ c) (found_wg m ρ c) (found_bg m ρ c) b n h).trans
    (Cert.ReferenceIdeal.Stages.gate_entry (m ((c : Thread nD τ).loc main_arg0)) (m ((c : Thread nD τ).loc main_arg1)) (m ((c : Thread nD τ).loc main_arg2)) b n h).symm

theorem query_stage (c : Dev nD) (b : Fin 4) (n : Fin 4096) (e : Fin 128) :
    Region0.queryArr (V1 m ρ) c (ix3 b n e)
      = Cert.ReferenceIdeal.Read.val_main_v12 (F := Ideal) (m ((c : Thread nD τ).loc main_arg0)) (m ((c : Thread nD τ).loc main_arg3)) (m ((c : Thread nD τ).loc main_arg4)) (m ((c : Thread nD τ).loc main_arg5)) (ix3 b n e) :=
  (scaled_of (m ((c : Thread nD τ).loc main_arg0)) (m ((c : Thread nD τ).loc main_arg3)) (m ((c : Thread nD τ).loc main_arg4)) (m ((c : Thread nD τ).loc main_arg5)) (V1 m ρ c main_arg0) (V1 m ρ c main_v6) (V1 m ρ c main_arg4) (V1 m ρ c main_arg5)
      (found_x m ρ c) (found_wqk m ρ c) (found_qg m ρ c) (found_qb m ρ c) b n e).trans
    (Cert.ReferenceIdeal.Stages.query_entry (m ((c : Thread nD τ).loc main_arg0)) (m ((c : Thread nD τ).loc main_arg3)) (m ((c : Thread nD τ).loc main_arg4)) (m ((c : Thread nD τ).loc main_arg5)) b n e).symm

theorem key_stage (c : Dev nD) (b : Fin 4) (p : Fin 4096) (e : Fin 128) :
    Region0.keyArr (V1 m ρ) c (ix3 b p e)
      = Cert.ReferenceIdeal.Read.val_main_v18 (F := Ideal) (m ((c : Thread nD τ).loc main_arg0)) (m ((c : Thread nD τ).loc main_arg3)) (m ((c : Thread nD τ).loc main_arg6)) (m ((c : Thread nD τ).loc main_arg7)) (ix3 b p e) :=
  (scaled_of (m ((c : Thread nD τ).loc main_arg0)) (m ((c : Thread nD τ).loc main_arg3)) (m ((c : Thread nD τ).loc main_arg6)) (m ((c : Thread nD τ).loc main_arg7)) (V1 m ρ c main_arg0) (V1 m ρ c main_v6) (V1 m ρ c main_arg6) (V1 m ρ c main_arg7)
      (found_x m ρ c) (found_wqk m ρ c) (found_kg m ρ c) (found_kb m ρ c) b p e).trans
    (Cert.ReferenceIdeal.Stages.key_entry (m ((c : Thread nD τ).loc main_arg0)) (m ((c : Thread nD τ).loc main_arg3)) (m ((c : Thread nD τ).loc main_arg6)) (m ((c : Thread nD τ).loc main_arg7)) b p e).symm

/-! ## The result -/

/-- The kernel's result array is the reference's result stage of the same arguments. -/
theorem result_eq (c : Dev nD) :
    W3 m ρ c (Proc.devRef .tc main_v9)
      = Cert.ReferenceIdeal.Read.val_main_v30 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) := by
  refine (Cert.KernelIdeal.Result.result_arr m ρ c).trans ((Region1.final (V2 m ρ) c).trans ?_)
  refine funext fun (i : S4x4096x512.Idx) => ?_
  obtain ⟨b, n, j, rfl⟩ : ∃ (b : Fin 4) (n : Fin 4096) (j : Fin 512), i = ix3 b n j := ⟨i 0, i 1, i 2, eq_ix3 i⟩
  refine Eq.trans ?_ (Cert.ReferenceIdeal.Stages.out_entry (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) b n j).symm
  exact attn_of (V2 m ρ c main_v8_2) (V2 m ρ c main_v8_3) (V2 m ρ c main_v8_0) (V2 m ρ c main_v8_1) (V2 m ρ c main_v7)
    (V2 m ρ c main_arg9) (V2 m ρ c main_arg0) _ _ _ _ _ _ _
    (fun b n e => (congrFun (found2_q m ρ c) _).trans (query_stage m ρ c b n e))
    (fun b p e => (congrFun (found2_k m ρ c) _).trans (key_stage m ρ c b p e))
    (fun b p h => (congrFun (found2_v m ρ c) _).trans (value_stage m ρ c b p h))
    (fun b n h => (congrFun (found2_g m ρ c) _).trans (gate_stage m ρ c b n h))
    (found2_wout m ρ c) (found2_bout m ρ c) (found2_x m ρ c) b n j

end Cert.KernelIdeal.Bridge

end
-- ==== Proof.lean ====
/-
  A gated attention unit as two fused kernels against its plain formulation: the claims.

  The kernel projects `x` to value, gate, query and key arrays in one region and, in a second region, forms for
  every query row the ReLU² weights against all keys of its batch, the weighted sum of the values, the gate, the
  output projection, the bias and the residual.  The reference computes the same with whole-array contractions.
  At the extended reals a change of float format is the identity and every contraction is a plain finite sum, so
  both results are, entry by entry, the same term (`Spec.attnOut` over `Spec.dense` and `Spec.scaled`): no
  algebraic law beyond the renaming of indices joins them, and the finiteness of the inputs is not used.

  The three frames are the programs' runs with the results dropped; the idealization rewrote nothing, so there is
  nothing to preserve; the algebraic claim puts the two runs side by side at the kernel's result array.
-/
import proofs.«124823_j50672024158214_1_alg».proof.Defs
import proofs.«124823_j50672024158214_1_alg».proof.Proof.Gen.Kernel
import proofs.«124823_j50672024158214_1_alg».proof.Proof.Gen.Kernel.Frame
import proofs.«124823_j50672024158214_1_alg».proof.Proof.Gen.KernelIdeal
import proofs.«124823_j50672024158214_1_alg».proof.Proof.Gen.KernelIdeal.Frame
import proofs.«124823_j50672024158214_1_alg».proof.Proof.Gen.ReferenceIdeal
import proofs.«124823_j50672024158214_1_alg».proof.Proof.Gen.Pre_finite_inputs
import proofs.«124823_j50672024158214_1_alg».proof.Proof.Gen.ReferenceIdeal.Run
import proofs.«124823_j50672024158214_1_alg».proof.Proof.Gen.ReferenceIdeal.Read
import proofs.«124823_j50672024158214_1_alg».proof.Proof.KernelRun
import proofs.«124823_j50672024158214_1_alg».proof.Proof.Bridge
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- The idealized kernel runs and leaves its arguments as launched. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The idealized reference runs and leaves its arguments as launched: its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both idealized programs end with the same result array: the kernel's
    is the fold of its two regions' write-backs, which is the reference's last stage of the same arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W3 m ρ c (Proc.devRef .tc Cert.KernelIdeal.main_v9), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2]
  exact (Cert.KernelIdeal.Bridge.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
